-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg5 : FVec F S256x256 .f32) (main_arg6 : FVec F S256 .f32) (main_arg7 : FVec F S256x128 .f32) (main_arg8 : FVec F S128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg8 main_v33

def fn {F : FTy → Type} [FloatOps F] (main_arg0 : FVec F S50000x128 .f32) (main_arg1 : IVec S2x800000 32) (main_arg2 : FVec F S128x256 .f32) (main_arg3 : FVec F S256 .f32) (main_arg4 : FVec F S128x256 .f32) (main_arg5 : FVec F S256x256 .f32) (main_arg6 : FVec F S256 .f32) (main_arg7 : FVec F S256x128 .f32) (main_arg8 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg5 main_arg6 main_arg7 main_arg8 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000x1 : Shape := ⟨2, ![50000, 1]⟩
abbrev S50000x129 : Shape := ⟨2, ![50000, 129]⟩
abbrev S800000x1 : Shape := ⟨2, ![800000, 1]⟩
abbrev S800000x129 : Shape := ⟨2, ![800000, 129]⟩
abbrev S1x256 : Shape := ⟨2, ![1, 256]⟩
abbrev S1x128 : Shape := ⟨2, ![1, 128]⟩
abbrev S5000x128 : Shape := ⟨2, ![5000, 128]⟩
abbrev S5000x1 : Shape := ⟨2, ![5000, 1]⟩
abbrev S5000x256 : Shape := ⟨2, ![5000, 256]⟩

abbrev nBuf : Space → Nat
  | .hbm => 35
  | .vmem => 15
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S128x256, .f32⟩
  | .hbm, ⟨5, _⟩ => ⟨S256x256, .f32⟩
  | .hbm, ⟨6, _⟩ => ⟨S256, .f32⟩
  | .hbm, ⟨7, _⟩ => ⟨S256x128, .f32⟩
  | .hbm, ⟨8, _⟩ => ⟨S128, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .f32⟩
  | .hbm, ⟨14, _⟩ => ⟨S50000x1, .f32⟩
  | .hbm, ⟨15, _⟩ => ⟨S50000x129, .f32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x129, .f32⟩
  | .hbm, ⟨25, _⟩ => ⟨S_, .f32⟩
  | .hbm, ⟨26, _⟩ => ⟨S50000x129, .f32⟩
  | .hbm, ⟨27, _⟩ => ⟨S800000x1, .i32⟩
  | .hbm, ⟨28, _⟩ => ⟨S50000x129, .f32⟩
  | .hbm, ⟨29, _⟩ => ⟨S50000x128, .f32⟩
  | .hbm, ⟨30, _⟩ => ⟨S50000x1, .f32⟩
  | .hbm, ⟨31, _⟩ => ⟨S1x256, .f32⟩
  | .hbm, ⟨32, _⟩ => ⟨S1x256, .f32⟩
  | .hbm, ⟨33, _⟩ => ⟨S1x128, .f32⟩
  | .hbm, ⟨34, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x256, .f32⟩
  | .local _ .vmem, ⟨7, _⟩ => ⟨S1x256, .f32⟩
  | .local _ .vmem, ⟨8, _⟩ => ⟨S128x256, .f32⟩
  | .local _ .vmem, ⟨9, _⟩ => ⟨S256x256, .f32⟩
  | .local _ .vmem, ⟨10, _⟩ => ⟨S1x256, .f32⟩
  | .local _ .vmem, ⟨11, _⟩ => ⟨S256x128, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S5000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000x1 : S_.BroadcastsInDim S50000x1 (![] : Fin 0 → Fin S50000x1.rank)
  concatenates_S50000x128_S50000x1_S50000x129_d1 : Shape.Concatenates [S50000x128, S50000x1] S50000x129 1
  bcast_S_S800000 : S_.BroadcastsInDim S800000 (![] : Fin 0 → Fin S800000.rank)
  bcast_S800000_S800000x1_0 : S800000.BroadcastsInDim S800000x1 (![0] : Fin 1 → Fin S800000x1.rank)
  bcast_S_S50000x129 : S_.BroadcastsInDim S50000x129 (![] : Fin 0 → Fin S50000x129.rank)
  slices_S50000x129_S50000x128_0_0 : S50000x129.Slices ![0, 0] S50000x128
  slices_S50000x129_S50000x1_0_128 : S50000x129.Slices ![0, 128] S50000x1
  shapeCasts_S256_S1x256 : S256.ShapeCasts S1x256
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x256_S256x256_0_0 : ∀ a, (![0, 0] : Fin 2 → Nat) a + S256x256.size a ≤ S256x256.size a
  h_S256x256 : 0 < S256x256.numel
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S50000x129_S800000x1_S800000x129_1_0_n_n_0_1_1129_wf : GatherDims.WF S50000x129 S800000x1 S800000x129 [1] [0] [] [0] [] 1 ![1, 129]
  scatter_S50000x129_S800000x1_S800000x129_1_0_0_1_wf : ScatterDims.WF S50000x129 S800000x1 S800000x129 [1] [0] [0] 1
  dot_S5000x128_S128x256_S5000x256_1_0_0_1_n_n_wf : DotDims.WF S5000x128 S128x256 S5000x256 [1] [0] [0] [1] [] []
  dot_S5000x256_S256x256_S5000x256_1_0_0_1_n_n_wf : DotDims.WF S5000x256 S256x256 S5000x256 [1] [0] [0] [1] [] []
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .f32 = 32 ∨ (Rect.block (s := S128x256) S128x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .f32 = 32 ∨ (Rect.block (s := S256x256) S256x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x128.size a ≤ S256x128.size a
  hwx0_8 : ∀ i : grid0.Coords, EltTy.bits .f32 = 32 ∨ (Rect.block (s := S256x128) S256x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S5000x128.size a ≤ S50000x128.size a
  hwx0_10 : ∀ i : grid0.Coords, EltTy.bits .f32 = 32 ∨ (Rect.block (s := S50000x128) S5000x128.size (cc0_transform_10 i) (hinb0_10 i)).WholeWords (EltTy.packing .f32)

variable [Facts₀]

def gather_S50000x129_S800000x1_S800000x129_1_0_n_n_0_1_1129 : GatherDims S50000x129 S800000x1 S800000x129 where
  offsetDims := [1]
  collapsedSliceDims := [0]
  operandBatchingDims := []
  startIndicesBatchingDims := []
  startIndexMap := [0]
  indexVectorDim := 1
  sliceSizes := ![1, 129]
  wf := gather_S50000x129_S800000x1_S800000x129_1_0_n_n_0_1_1129_wf
def scatter_S50000x129_S800000x1_S800000x129_1_0_0_1 : ScatterDims S50000x129 S800000x1 S800000x129 where
  updateWindowDims := [1]
  insertedWindowDims := [0]
  scatterDimsToOperandDims := [0]
  indexVectorDim := 1
  wf := scatter_S50000x129_S800000x1_S800000x129_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S256x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v20) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v21) S5000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S1x128 : Shape := ⟨2, ![1, 128]⟩

abbrev nBuf : Space → Nat
  | .hbm => 58
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S128x256, .f32⟩
  | .hbm, ⟨5, _⟩ => ⟨S256x256, .f32⟩
  | .hbm, ⟨6, _⟩ => ⟨S256, .f32⟩
  | .hbm, ⟨7, _⟩ => ⟨S256x128, .f32⟩
  | .hbm, ⟨8, _⟩ => ⟨S128, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S_, .f32⟩
  | .hbm, ⟨23, _⟩ => ⟨S50000x128, .f32⟩
  | .hbm, ⟨24, _⟩ => ⟨S800000x1, .i32⟩
  | .hbm, ⟨25, _⟩ => ⟨S50000x128, .f32⟩
  | .hbm, ⟨26, _⟩ => ⟨S_, .f32⟩
  | .hbm, ⟨27, _⟩ => ⟨S800000, .f32⟩
  | .hbm, ⟨28, _⟩ => ⟨S_, .f32⟩
  | .hbm, ⟨29, _⟩ => ⟨S50000, .f32⟩
  | .hbm, ⟨30, _⟩ => ⟨S800000x1, .i32⟩
  | .hbm, ⟨31, _⟩ => ⟨S50000, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000x1, .f32⟩
  | .hbm, ⟨36, _⟩ => ⟨S50000x128, .f32⟩
  | .hbm, ⟨37, _⟩ => ⟨S50000x128, .f32⟩
  | .hbm, ⟨38, _⟩ => ⟨S50000x256, .f32⟩
  | .hbm, ⟨39, _⟩ => ⟨S50000x256, .f32⟩
  | .hbm, ⟨40, _⟩ => ⟨S50000x256, .f32⟩
  | .hbm, ⟨41, _⟩ => ⟨S1x256, .f32⟩
  | .hbm, ⟨42, _⟩ => ⟨S50000x256, .f32⟩
  | .hbm, ⟨43, _⟩ => ⟨S50000x256, .f32⟩
  | .hbm, ⟨44, _⟩ => ⟨S_, .f32⟩
  | .hbm, ⟨45, _⟩ => ⟨S50000x256, .f32⟩
  | .hbm, ⟨46, _⟩ => ⟨S50000x256, .f32⟩
  | .hbm, ⟨47, _⟩ => ⟨S50000x256, .f32⟩
  | .hbm, ⟨48, _⟩ => ⟨S1x256, .f32⟩
  | .hbm, ⟨49, _⟩ => ⟨S50000x256, .f32⟩
  | .hbm, ⟨50, _⟩ => ⟨S50000x256, .f32⟩
  | .hbm, ⟨51, _⟩ => ⟨S_, .f32⟩
  | .hbm, ⟨52, _⟩ => ⟨S50000x256, .f32⟩
  | .hbm, ⟨53, _⟩ => ⟨S50000x256, .f32⟩
  | .hbm, ⟨54, _⟩ => ⟨S50000x128, .f32⟩
  | .hbm, ⟨55, _⟩ => ⟨S1x128, .f32⟩
  | .hbm, ⟨56, _⟩ => ⟨S50000x128, .f32⟩
  | .hbm, ⟨57, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_call0_cst : Ref sig .tc := ⟨.hbm, 44, rfl⟩
abbrev main_call0_v0 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_call1_cst : Ref sig .tc := ⟨.hbm, 51, rfl⟩
abbrev main_call1_v0 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.LibScatterAt.lean ====
/-
  A host scatter read at one index of its result.

  The host's `scatter` is a left fold over all the update indices, in row-major order: each update index `j` has
  a landing place `d.resultIdx? j idx` in the operand (or none, when its window leaves the operand), and the step
  for `j` replaces the element there by the body `f` applied to it and to the update's element at `j`.
  When distinct update indices never land on the same place, the element of the result at a place `i` has met
  at most one step:
    * `Host.scatter_apply_of_miss`: no update index lands on `i`  ⟹  the result at `i` is the operand's element;
    * `Host.scatter_apply_of_hit`:  `j₀` lands on `i`             ⟹  the result at `i` is `f (x i) (upd j₀)`.
  Both hold for any body `f` and any element type; nothing is evaluated, so the number of update indices is
  irrelevant. The first needs no injectivity. `ScatterDims.resultIdx?_val` reads a landing place coordinate by
  coordinate (start plus window coordinate), which is how the two hypotheses are met for given dimension numbers.
-/
import Idealize.ShloMosaic.PureOps.ShapeOps

namespace Idealize.ShloMosaic

section ScatterAt
variable {s si u : Shape} {α : Type} {w : Nat}

/-- The step of `Host.scatter`'s fold at the update index of row-major position `n`. -/
def Host.scatterStep (d : ScatterDims s si u) (f : α → α → α) (idx : IVec si w) (upd : u.Idx → α)
    (r : s.Idx → α) (n : Fin u.numel) : s.Idx → α :=
  match d.resultIdx? (u.rowMajor.symm n) idx with
  | some i => fun i' => if i' = i then f (r i) (upd (u.rowMajor.symm n)) else r i'
  | none => r

/-- `Host.scatter` is the fold of that step over all positions. -/
theorem Host.scatter_eq_foldl (d : ScatterDims s si u) (f : α → α → α) (x : s.Idx → α) (idx : IVec si w) (upd : u.Idx → α) :
    Host.scatter d f x idx upd = (List.finRange u.numel).foldl (Host.scatterStep d f idx upd) x := rfl

/-- A step whose update index lands elsewhere (or nowhere) leaves the element at `i` alone. -/
theorem Host.scatterStep_apply_of_ne (d : ScatterDims s si u) (f : α → α → α) (idx : IVec si w) (upd : u.Idx → α)
    (r : s.Idx → α) (n : Fin u.numel) (i : s.Idx) (h : d.resultIdx? (u.rowMajor.symm n) idx ≠ some i) :
    Host.scatterStep d f idx upd r n i = r i := by
  unfold Host.scatterStep
  generalize d.resultIdx? (u.rowMajor.symm n) idx = o at h ⊢
  cases o with
  | none => rfl
  | some k => exact if_neg fun e => h (congrArg some e.symm)

/-- A step whose update index lands on `i` applies the body there. -/
theorem Host.scatterStep_apply_of_eq (d : ScatterDims s si u) (f : α → α → α) (idx : IVec si w) (upd : u.Idx → α)
    (r : s.Idx → α) (n : Fin u.numel) (i : s.Idx) (h : d.resultIdx? (u.rowMajor.symm n) idx = some i) :
    Host.scatterStep d f idx upd r n i = f (r i) (upd (u.rowMajor.symm n)) := by
  unfold Host.scatterStep
  generalize d.resultIdx? (u.rowMajor.symm n) idx = o at h ⊢
  cases o with
  | none => exact absurd h (by simp)
  | some k =>
    have e : k = i := Option.some.inj h
    subst e
    exact if_pos rfl

/-- A run of steps none of which lands on `i` leaves the element at `i` alone. -/
theorem Host.foldl_scatterStep_apply_of_miss (d : ScatterDims s si u) (f : α → α → α) (idx : IVec si w) (upd : u.Idx → α)
    (i : s.Idx) : ∀ (l : List (Fin u.numel)) (r : s.Idx → α),
      (∀ n ∈ l, d.resultIdx? (u.rowMajor.symm n) idx ≠ some i) → l.foldl (Host.scatterStep d f idx upd) r i = r i
  | [], _, _ => rfl
  | a :: l, r, h => by
    rw [List.foldl_cons, Host.foldl_scatterStep_apply_of_miss d f idx upd i l _ fun n hn => h n (List.mem_cons_of_mem _ hn)]
    exact Host.scatterStep_apply_of_ne d f idx upd r a i (h a (List.mem_cons_self ..))

/-- NO UPDATE INDEX LANDS ON `i`: the scatter's result there is the operand's element. -/
theorem Host.scatter_apply_of_miss (d : ScatterDims s si u) (f : α → α → α) (x : s.Idx → α) (idx : IVec si w) (upd : u.Idx → α)
    (i : s.Idx) (h : ∀ j : u.Idx, d.resultIdx? j idx ≠ some i) : Host.scatter d f x idx upd i = x i := by
  rw [Host.scatter_eq_foldl]
  exact Host.foldl_scatterStep_apply_of_miss d f idx upd i _ x fun n _ => h _

/-- A run of steps over distinct positions, one of which is the position of `j₀`, which lands on `i` and is the
    only update index to do so: the element at `i` has met the body once, with the update's element at `j₀`. -/
theorem Host.foldl_scatterStep_apply_of_hit (d : ScatterDims s si u) (f : α → α → α) (idx : IVec si w) (upd : u.Idx → α)
    (i : s.Idx) (j₀ : u.Idx) (h₀ : d.resultIdx? j₀ idx = some i)
    (huniq : ∀ j : u.Idx, d.resultIdx? j idx = some i → j = j₀) :
    ∀ (l : List (Fin u.numel)) (r : s.Idx → α), l.Nodup → u.rowMajor j₀ ∈ l →
      l.foldl (Host.scatterStep d f idx upd) r i = f (r i) (upd j₀)
  | [], _, _, hm => absurd hm (List.not_mem_nil)
  | a :: l, r, hnd, hm => by
    have hal : a ∉ l := (List.nodup_cons.1 hnd).1
    have hl : l.Nodup := (List.nodup_cons.1 hnd).2
    rw [List.foldl_cons]
    by_cases ha : a = u.rowMajor j₀
    · -- this step is the one; none after it lands on `i`
      have hrest : ∀ n ∈ l, d.resultIdx? (u.rowMajor.symm n) idx ≠ some i := fun n hn hk => by
        have : n = u.rowMajor j₀ := by rw [← huniq _ hk, Equiv.apply_symm_apply]
        exact hal (ha ▸ this ▸ hn)
      rw [Host.foldl_scatterStep_apply_of_miss d f idx upd i l _ hrest]
      have hj : u.rowMajor.symm a = j₀ := by rw [ha, Equiv.symm_apply_apply]
      rw [Host.scatterStep_apply_of_eq d f idx upd r a i (hj ▸ h₀), hj]
    · -- this step lands elsewhere; the one comes later
      have hm' : u.rowMajor j₀ ∈ l := by
        rcases List.mem_cons.1 hm with h | h
        · exact absurd h.symm ha
        · exact h
      have hne : d.resultIdx? (u.rowMajor.symm a) idx ≠ some i := fun hk =>
        ha (by rw [← huniq _ hk, Equiv.apply_symm_apply])
      rw [Host.foldl_scatterStep_apply_of_hit d f idx upd i j₀ h₀ huniq l _ hl hm',
        Host.scatterStep_apply_of_ne d f idx upd r a i hne]

/-- THE UPDATE INDEX `j₀`, AND NO OTHER, LANDS ON `i`: the scatter's result there is the body applied to the
    operand's element and the update's element at `j₀`. -/
theorem Host.scatter_apply_of_hit (d : ScatterDims s si u) (f : α → α → α) (x : s.Idx → α) (idx : IVec si w) (upd : u.Idx → α)
    (i : s.Idx) (j₀ : u.Idx) (h₀ : d.resultIdx? j₀ idx = some i)
    (huniq : ∀ j : u.Idx, d.resultIdx? j idx = some i → j = j₀) :
    Host.scatter d f x idx upd i = f (x i) (upd j₀) := by
  rw [Host.scatter_eq_foldl]
  exact Host.foldl_scatterStep_apply_of_hit d f idx upd i j₀ h₀ huniq _ x (List.nodup_finRange _) (List.mem_finRange _)

/-- WHERE AN UPDATE INDEX LANDS, coordinate by coordinate: the window's start on the axis plus the update's window
    coordinate there (as integers: the start is read signed). -/
theorem ScatterDims.resultIdx?_val (d : ScatterDims s si u) {j : u.Idx} {idx : IVec si w} {k : s.Idx}
    (h : d.resultIdx? j idx = some k) (a : Fin s.rank) :
    ((k a).val : ℤ) = d.start j idx a + (d.window j a : ℤ) := by
  unfold ScatterDims.resultIdx? at h
  by_cases hb : ∀ a, 0 ≤ d.start j idx a + d.window j a ∧ d.start j idx a + d.window j a < s.size a
  · rw [dif_pos hb] at h
    have e := Option.some.inj h
    subst e
    exact Int.toNat_of_nonneg (hb a).1
  · rw [dif_neg hb] at h
    exact absurd h (by simp)

end ScatterAt

end Idealize.ShloMosaic
-- ==== Proof.LibScatterLand.lean ====
/-
  Where a host scatter's update index lands, as one equation per axis.

  An update index lands on an operand index exactly when, on every axis, the operand coordinate is the window's
  start on that axis plus the update's window coordinate there (as integers: the start is read signed).  This is the
  form in which a landing place is both exhibited (for the index that hits) and refuted (for an index that cannot).
-/
import proofs.«177334_j34419867910897_2_alg».proof.Proof.LibScatterAt

namespace Idealize.ShloMosaic

/-- An update index `j` lands on `i` iff on every axis `i`'s coordinate is the start plus the window coordinate. -/
theorem ScatterDims.resultIdx?_eq_some_iff {s si u : Shape} (d : ScatterDims s si u) {w : Nat} (j : u.Idx)
    (idx : IVec si w) (i : s.Idx) :
    d.resultIdx? j idx = some i ↔ ∀ a, ((i a).val : ℤ) = d.start j idx a + (d.window j a : ℤ) := by
  constructor
  · intro h a; exact ScatterDims.resultIdx?_val d h a
  · intro h
    have hb : ∀ a, 0 ≤ d.start j idx a + d.window j a ∧ d.start j idx a + d.window j a < s.size a := fun a => by
      rw [← h a]; exact ⟨Int.natCast_nonneg _, by exact_mod_cast (i a).isLt⟩
    unfold ScatterDims.resultIdx?
    rw [dif_pos hb]
    congr 1
    funext a
    apply Fin.ext
    show (d.start j idx a + d.window j a).toNat = (i a).val
    rw [← h a]
    exact Int.toNat_natCast _

end Idealize.ShloMosaic
-- ==== Proof.LibEdgeSums.lean ====
/-
  Rows gathered along a list of edges and added up at their destinations, read at one index.

  A graph's E edges are pairs (source, destination) of integer words.  Indexing an [N, C] array by the sources
  takes, for every edge e, the row whose number is the source read as a signed integer and clamped into
  [0, N − 1].  A scatter with an `add` body then adds row e of an [E, C] array of updates into row `dst e` of an
  [N, C] operand for every edge whose destination, read signed and NOT clamped, is a row of the operand; an edge
  whose destination is no row is dropped.  On the extended reals the result at (n, c) is the operand's element plus
  the sum over the edges of the update at (e, c) where the destination is n and of zero elsewhere.  With one scalar
  update per edge and a length-N operand the same sum weighs the edges that arrive at n.  Addition of extended
  reals is commutative and associative, so the order of the edges plays no part and nothing has to be finite.
-/
import Idealize.ShloMosaic.PureOps.Ideal
import Idealize.ShloMosaic.Lib.ValueIdx
import proofs.«177334_j34419867910897_2_alg».proof.Proof.LibScatterLand

noncomputable section

open scoped BigOperators

namespace Cert.EdgeSums

open Idealize.ShloMosaic Idealize.ShloMosaic.ValueIdx

/-! ## The row an edge reads -/

/-- Dimension numbers of `x[src]` for an [N, C] operand and E start indices held as an [E, 1] array: whole rows,
    the row axis collapsed. -/
abbrev rowGatherDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row edge `e` reads: its start index as a signed integer, clamped into [0, N − 1]. -/
def srcRow {N E w : Nat} (hN : 0 < N) (idx : IVec ⟨2, ![E, 1]⟩ w) (e : Fin E) : Fin N :=
  ⟨min (idx (ix2 e (0 : Fin 1))).toInt.toNat (N - 1), by omega⟩

section Gather
variable {α : Type} {N C E w : Nat}

/-- The gathered array at (e, c) is the operand at (the row edge e reads, c). -/
theorem rowGather_apply (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N C E wf) x idx (ix2 e c) = x (ix2 (srcRow hN idx e) c) := by
  unfold Host.gather
  congr 1
  funext a
  refine Fin.ext ?_
  match a with
  | ⟨0, _⟩ =>
    show (rowGatherDims N C E wf).start (ix2 e c) idx 0 + (rowGatherDims N C E wf).batchCoord (ix2 e c) 0
      + (rowGatherDims N C E wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C E wf).startIndexMap from List.mem_singleton.mpr rfl)]
    have hsi : (rowGatherDims N C E wf).siIdx (ix2 e c) ⟨List.idxOf (0 : Fin 2) (rowGatherDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N C E wf).start (ix2 e c) idx 1 + (rowGatherDims N C E wf).batchCoord (ix2 e c) 1
      + (rowGatherDims N C E wf).offCoord (ix2 e c) 1 = c.val
    have h1 : (1 : Fin 2) ∉ (rowGatherDims N C E wf).startIndexMap := fun h =>
      absurd (List.mem_singleton.mp h) (by decide : (1 : Fin 2) ≠ 0)
    have hk : (1 : Fin 2) ∈ (rowGatherDims N C E wf).sKept :=
      (GatherDims.mem_sKept _ _).mpr ⟨fun h => absurd (List.mem_singleton.mp h) (by decide : (1 : Fin 2) ≠ 0), List.not_mem_nil⟩
    rw [GatherDims.batchCoord_eq_zero _ _ _ List.not_mem_nil]
    unfold GatherDims.start GatherDims.offCoord
    rw [dif_neg h1, dif_pos hk]
    simp only [Nat.add_zero, Nat.zero_add]
    rfl

end Gather

/-! ## Rows added at their destinations -/

/-- Dimension numbers of `operand.at[dst].add(updates)` for an [N, C] operand, E destinations held as an [E, 1]
    array and [E, C] updates: whole rows, the row axis inserted. -/
abbrev rowScatterDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section RowScatter
variable {N C E w : Nat} (wf : ScatterDims.WF ⟨2, ![N, C]⟩ ⟨2, ![E, 1]⟩ ⟨2, ![E, C]⟩ [1] [0] [0] 1)
  (idx : IVec ⟨2, ![E, 1]⟩ w)

theorem rowScatter_start0 (e : Fin E) (c : Fin C) :
    (rowScatterDims N C E wf).start (ix2 e c) idx 0 = (idx (ix2 e (0 : Fin 1))).toInt := by
  unfold ScatterDims.start
  rw [dif_pos (show (0 : Fin 2) ∈ (rowScatterDims N C E wf).scatterDimsToOperandDims from List.mem_singleton.mpr rfl)]
  have hsi : (rowScatterDims N C E wf).siIdx (ix2 e c) ⟨List.idxOf (0 : Fin 2) (rowScatterDims N C E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem rowScatter_start1 (e : Fin E) (c : Fin C) : (rowScatterDims N C E wf).start (ix2 e c) idx 1 = 0 := by
  unfold ScatterDims.start
  rw [dif_neg (fun h => absurd (List.mem_singleton.mp h) (by decide : (1 : Fin 2) ≠ 0))]

/-- The operand's axes that receive a window coordinate: the column axis alone. -/
theorem rowScatter_mem_sKept (a : Fin 2) : a ∈ (rowScatterDims N C E wf).sKept ↔ a ≠ 0 := by
  show a ∈ (List.finRange 2).filter (· ∉ [(0 : Fin 2)]) ↔ a ≠ 0
  rw [List.mem_filter]
  simp [List.mem_finRange]

theorem rowScatter_window0 (e : Fin E) (c : Fin C) : (rowScatterDims N C E wf).window (ix2 e c) 0 = 0 := by
  unfold ScatterDims.window
  rw [dif_neg (fun h => (rowScatter_mem_sKept wf 0).mp h rfl)]

theorem rowScatter_window1 (e : Fin E) (c : Fin C) : (rowScatterDims N C E wf).window (ix2 e c) 1 = c.val := by
  unfold ScatterDims.window
  rw [dif_pos ((rowScatter_mem_sKept wf 1).mpr (by decide : (1 : Fin 2) ≠ 0))]
  rfl

/-- The update at (e, c') lands on (n, c) exactly when edge e's destination is n and the columns agree. -/
theorem rowScatter_lands (e : Fin E) (c' : Fin C) (n : Fin N) (c : Fin C) :
    (rowScatterDims N C E wf).resultIdx? (ix2 e c') idx = some (ix2 n c)
      ↔ (idx (ix2 e (0 : Fin 1))).toInt = (n.val : ℤ) ∧ c' = c := by
  rw [ScatterDims.resultIdx?_eq_some_iff]
  constructor
  · intro h
    have h0 := h 0
    have h1 := h 1
    rw [rowScatter_start0, rowScatter_window0] at h0
    rw [rowScatter_start1, rowScatter_window1] at h1
    refine ⟨?_, Fin.ext ?_⟩
    · have : ((n.val : ℕ) : ℤ) = (idx (ix2 e (0 : Fin 1))).toInt + ((0 : ℕ) : ℤ) := h0
      omega
    · have : ((c.val : ℕ) : ℤ) = 0 + ((c'.val : ℕ) : ℤ) := h1
      omega
  · rintro ⟨h0, rfl⟩ a
    match a with
    | ⟨0, _⟩ =>
      show ((n.val : ℕ) : ℤ) = (rowScatterDims N C E wf).start (ix2 e c') idx 0 + ((rowScatterDims N C E wf).window (ix2 e c') 0 : ℤ)
      rw [rowScatter_start0, rowScatter_window0, h0]; simp
    | ⟨1, _⟩ =>
      show ((c'.val : ℕ) : ℤ) = (rowScatterDims N C E wf).start (ix2 e c') idx 1 + ((rowScatterDims N C E wf).window (ix2 e c') 1 : ℤ)
      rw [rowScatter_start1, rowScatter_window1]; simp

/-- ROWS ADDED AT THEIR DESTINATIONS, at (n, c): the operand's element plus the sum over the edges of the update at
    (e, c) where edge e's destination is n. -/
theorem rowScatterAdd_apply (x : (⟨2, ![N, C]⟩ : Shape).Idx → EReal) (upd : (⟨2, ![E, C]⟩ : Shape).Idx → EReal)
    (n : Fin N) (c : Fin C) :
    Ideal.hostScatterAdd (rowScatterDims N C E wf) x idx upd (ix2 n c)
      = x (ix2 n c) + ∑ e : Fin E, if (idx (ix2 e (0 : Fin 1))).toInt = (n.val : ℤ) then upd (ix2 e c) else 0 := by
  unfold Ideal.hostScatterAdd
  congr 1
  rw [Finset.sum_filter, sum_idx2]
  refine Finset.sum_congr rfl fun e _ => ?_
  simp only [rowScatter_lands]
  by_cases h : (idx (ix2 e (0 : Fin 1))).toInt = (n.val : ℤ)
  · simp only [h, true_and, if_true]
    rw [Finset.sum_ite_eq' Finset.univ c, if_pos (Finset.mem_univ _)]
  · simp only [h, false_and, if_false, Finset.sum_const_zero]

end RowScatter

/-! ## Gathered rows added at their destinations -/

/-- What arrives at node n in column c: the sum over the edges whose destination is n of the source row's entry c. -/
def rowsInto {N C E w : Nat} (hN : 0 < N) (x : (⟨2, ![N, C]⟩ : Shape).Idx → EReal) (sidx didx : IVec ⟨2, ![E, 1]⟩ w)
    (n : Fin N) (c : Fin C) : EReal :=
  ∑ e : Fin E, if (didx (ix2 e (0 : Fin 1))).toInt = (n.val : ℤ) then x (ix2 (srcRow hN sidx e) c) else 0

/-- The weight that arrives at node n: the sum over the edges whose destination is n of the edge's weight. -/
def weightInto {N E w : Nat} (didx : IVec ⟨2, ![E, 1]⟩ w) (u : Fin E → EReal) (n : Fin N) : EReal :=
  ∑ e : Fin E, if (didx (ix2 e (0 : Fin 1))).toInt = (n.val : ℤ) then u e else 0

/-- Rows taken at the sources and added at the destinations, at (n, c): the operand's element plus what arrives. -/
theorem gatherScatter_apply {N C E w : Nat} (hN : 0 < N)
    (wg : GatherDims.WF ⟨2, ![N, C]⟩ ⟨2, ![E, 1]⟩ ⟨2, ![E, C]⟩ [1] [0] [] [0] [] 1 ![1, C])
    (ws : ScatterDims.WF ⟨2, ![N, C]⟩ ⟨2, ![E, 1]⟩ ⟨2, ![E, C]⟩ [1] [0] [0] 1)
    (Z x : (⟨2, ![N, C]⟩ : Shape).Idx → EReal) (sidx didx : IVec ⟨2, ![E, 1]⟩ w) (n : Fin N) (c : Fin C) :
    Ideal.hostScatterAdd (rowScatterDims N C E ws) Z didx (Host.gather (rowGatherDims N C E wg) x sidx) (ix2 n c)
      = Z (ix2 n c) + rowsInto hN x sidx didx n c := by
  rw [rowScatterAdd_apply]
  refine congrArg (Z (ix2 n c) + ·) (Finset.sum_congr rfl fun e _ => ?_)
  rw [rowGather_apply hN]

/-- What arrives depends on the rows' entries in that column only. -/
theorem rowsInto_congr {N C C' E w : Nat} (hN : 0 < N) (x : (⟨2, ![N, C]⟩ : Shape).Idx → EReal)
    (x' : (⟨2, ![N, C']⟩ : Shape).Idx → EReal) (sidx didx : IVec ⟨2, ![E, 1]⟩ w) (n : Fin N) (c : Fin C) (c' : Fin C')
    (h : ∀ r : Fin N, x (ix2 r c) = x' (ix2 r c')) : rowsInto hN x sidx didx n c = rowsInto hN x' sidx didx n c' := by
  unfold rowsInto
  refine Finset.sum_congr rfl fun e _ => ?_
  rw [h]

/-- Where every row's entry in the column is the same number u, what arrives is the weight u per arriving edge. -/
theorem rowsInto_const {N C E w : Nat} (hN : 0 < N) (x : (⟨2, ![N, C]⟩ : Shape).Idx → EReal)
    (sidx didx : IVec ⟨2, ![E, 1]⟩ w) (n : Fin N) (c : Fin C) (u : EReal) (h : ∀ r : Fin N, x (ix2 r c) = u) :
    rowsInto hN x sidx didx n c = weightInto didx (fun _ => u) n := by
  unfold rowsInto weightInto
  refine Finset.sum_congr rfl fun e _ => ?_
  rw [h]

/-! ## One number per edge added at its destination -/

/-- Dimension numbers of `operand.at[dst].add(updates)` for a length-N operand and one scalar update per edge. -/
abbrev pointScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- A rank-1 index set is its one coordinate range, so a sum over it is the sum over the coordinate. -/
theorem sum_idx1 {M : Type*} [AddCommMonoid M] {n : Nat} (f : (⟨1, ![n]⟩ : Shape).Idx → M) :
    ∑ i, f i = ∑ a : Fin n, f (ix1 a) := by
  let eqv : (⟨1, ![n]⟩ : Shape).Idx ≃ Fin n :=
    { toFun := fun i => i 0, invFun := fun a => ix1 a, left_inv := fun i => (eq_ix1 i).symm, right_inv := fun _ => rfl }
  rw [← Equiv.sum_comp eqv.symm f]
  rfl

section PointScatter
variable {N E w : Nat} (wf : ScatterDims.WF ⟨1, ![N]⟩ ⟨2, ![E, 1]⟩ ⟨1, ![E]⟩ [] [0] [0] 1) (idx : IVec ⟨2, ![E, 1]⟩ w)

theorem pointScatter_start (e : Fin E) :
    (pointScatterDims N E wf).start (ix1 e) idx 0 = (idx (ix2 e (0 : Fin 1))).toInt := by
  unfold ScatterDims.start
  rw [dif_pos (show (0 : Fin 1) ∈ (pointScatterDims N E wf).scatterDimsToOperandDims from List.mem_singleton.mpr rfl)]
  have hsi : (pointScatterDims N E wf).siIdx (ix1 e) ⟨List.idxOf (0 : Fin 1) (pointScatterDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem pointScatter_window (e : Fin E) : (pointScatterDims N E wf).window (ix1 e) 0 = 0 := by
  unfold ScatterDims.window
  have h0 : (0 : Fin 1) ∉ (pointScatterDims N E wf).sKept := by
    show (0 : Fin 1) ∉ (List.finRange 1).filter (· ∉ [(0 : Fin 1)])
    rw [List.mem_filter]
    simp
  rw [dif_neg h0]

/-- The update of edge e lands on n exactly when the edge's destination is n. -/
theorem pointScatter_lands (e : Fin E) (n : Fin N) :
    (pointScatterDims N E wf).resultIdx? (ix1 e) idx = some (ix1 n) ↔ (idx (ix2 e (0 : Fin 1))).toInt = (n.val : ℤ) := by
  rw [ScatterDims.resultIdx?_eq_some_iff]
  constructor
  · intro h
    have h0 := h 0
    rw [pointScatter_start, pointScatter_window] at h0
    have : ((n.val : ℕ) : ℤ) = (idx (ix2 e (0 : Fin 1))).toInt + ((0 : ℕ) : ℤ) := h0
    omega
  · intro h0 a
    match a with
    | ⟨0, _⟩ =>
      show ((n.val : ℕ) : ℤ) = (pointScatterDims N E wf).start (ix1 e) idx 0 + ((pointScatterDims N E wf).window (ix1 e) 0 : ℤ)
      rw [pointScatter_start, pointScatter_window, h0]; simp

/-- ONE NUMBER PER EDGE ADDED AT ITS DESTINATION, at n: the operand's element plus the sum over the edges of the
    edge's number where its destination is n. -/
theorem pointScatterAdd_apply (x : (⟨1, ![N]⟩ : Shape).Idx → EReal) (upd : (⟨1, ![E]⟩ : Shape).Idx → EReal) (n : Fin N) :
    Ideal.hostScatterAdd (pointScatterDims N E wf) x idx upd (ix1 n)
      = x (ix1 n) + ∑ e : Fin E, if (idx (ix2 e (0 : Fin 1))).toInt = (n.val : ℤ) then upd (ix1 e) else 0 := by
  unfold Ideal.hostScatterAdd
  congr 1
  rw [Finset.sum_filter, sum_idx1]
  refine Finset.sum_congr rfl fun e _ => ?_
  simp only [pointScatter_lands]

/-- The same with the edges' numbers named: the operand's element plus the weight that arrives. -/
theorem pointScatterAdd_weight (x : (⟨1, ![N]⟩ : Shape).Idx → EReal) (upd : (⟨1, ![E]⟩ : Shape).Idx → EReal) (n : Fin N) :
    Ideal.hostScatterAdd (pointScatterDims N E wf) x idx upd (ix1 n)
      = x (ix1 n) + weightInto idx (fun e => upd (ix1 e)) n :=
  pointScatterAdd_apply wf idx x upd n

end PointScatter

end Cert.EdgeSums

end
-- ==== Proof.LibRowOps.lean ====
/-
  Two-dimensional vector operations read at one index, on the extended reals.

  A kernel body that projects, normalises and contracts rows is a composition of a few operations on
  [a, b] vectors.  Each lemma below reads one of them at the index (r, c), with both coordinates explicit:
  a matrix product into a zero accumulator is the sum over the shared axis; a sum or a maximum along the
  second axis is the sum or the fold of `max` over that row; a length-a vector viewed as an [a, 1] column, the
  column repeated along a second axis, and a transpose only move coordinates.
-/
import Idealize.ShloMosaic.PureOps.Ideal.Laws
import Idealize.ShloMosaic.Lib.ValueIdx
import Idealize.ShloMosaic.Lib.Pipeline.Value

noncomputable section

namespace Cert.RowOps

open Idealize.ShloMosaic Idealize.ShloMosaic.ValueIdx

/-! ## A plain matrix product -/

/-- The dimension numbers of a plain `[M, K] × [K, N]` product: contract the left operand's second axis with the
    right operand's first, no batch axis. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Plain

variable {M K N : Nat} {d : DotDims ⟨2, ![M, K]⟩ ⟨2, ![K, N]⟩ ⟨2, ![M, N]⟩}

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

theorem contr_rank (hd : IsPlain d) : d.contr.rank = 1 := by
  rw [d.rank_contr, hd.lc]; rfl

theorem contr_size (hd : IsPlain d) : d.contr.size ⟨0, by rw [contr_rank hd]; exact Nat.one_pos⟩ = K := by
  rw [d.size_contr 0 (by rw [hd.lc]; exact Nat.one_pos)]
  simp only [hd.lc, List.getElem_cons_zero]
  rfl

/-- The left operand's row coordinate is the result's row coordinate. -/
theorem lhsIdx_row (hd : IsPlain d) (j : (⟨2, ![M, N]⟩ : Shape).Idx) (k : d.contr.Idx) :
    (d.lhsIdx j k 0).val = (j 0).val := by
  unfold DotDims.lhsIdx
  rw [dif_neg (by rw [hd.lb]; exact List.not_mem_nil), dif_pos (by rw [hd.ln]; exact List.mem_singleton.mpr rfl)]
  simp only [Fin.val_cast]
  exact val_congr j _ _ _ _ (by simp [hd.lb, hd.ln])

/-- The right operand's column coordinate is the result's column coordinate. -/
theorem rhsIdx_col (hd : IsPlain d) (j : (⟨2, ![M, N]⟩ : Shape).Idx) (k : d.contr.Idx) :
    (d.rhsIdx j k 1).val = (j 1).val := by
  unfold DotDims.rhsIdx
  rw [dif_neg (by rw [hd.rb]; exact List.not_mem_nil), dif_pos (by rw [hd.rn]; exact List.mem_singleton.mpr rfl)]
  simp only [Fin.val_cast]
  exact val_congr j _ _ _ _ (by simp [hd.lb, hd.ln, hd.rn])

/-- A plain matrix product into a zero accumulator, at (r, c): the sum over the shared axis of the products. -/
theorem matmul_zero_apply (hd : IsPlain d) {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul d prec lhs rhs (constant ⟨2, ![M, N]⟩ .f32 0x00000000#32) (ix2 r c)
      = ∑ k : Fin K, lhs (ix2 r k) * rhs (ix2 k c) := by
  rw [Ideal.matmul_constant_zero_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Plain

/-! ## Reductions along the second axis -/

section Rows

variable {a b : Nat} {φ : FTy}

/-- The index over row `r` with second coordinate `k`. -/
theorem lift_row (h : (⟨2, ![a, b]⟩ : Shape).Reduces [1] ⟨1, ![a]⟩) (r : Fin a) (k : Fin b) :
    h.lift (ix1 r) k = ix2 r k :=
  funext fun c => Fin.ext (by
    show h.liftVal (ix1 r) k.val c = (ix2 r k c).val
    unfold Shape.Reduces.liftVal
    match c with
    | ⟨0, _⟩ => rfl
    | ⟨1, _⟩ => rfl)

/-- A sum along the second axis, at row `r`: the sum of that row. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- A maximum along the second axis, at row `r`: the fold of `max` over that row from the starting word's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (Finset.fold max _ · _) (funext fun k => congrArg src (lift_row h r k))

end Rows

/-! ## Moving coordinates -/

section Layout

variable {α : Type} {a b : Nat}

/-- A length-`a` vector viewed as an `[a, 1]` column reads, at (i, u), the vector at i. -/
theorem column_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column repeated along a second axis reads, at (i, j), the column at (i, 0). -/
theorem spread_apply (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) :=
  broadcastTo_apply x h _ _ (fun c => by
    match c with
    | ⟨0, _⟩ =>
      show i.val = if a = 1 then 0 else i.val
      split
      · next h1 => have := i.isLt; omega
      · rfl
    | ⟨1, _⟩ => show 0 = if (1 : Nat) = 1 then 0 else j.val; rw [if_pos rfl])

/-- A transposed `[a, b]` vector reads, at (p, q), the vector at (q, p). -/
theorem swap_apply (x : (⟨2, ![a, b]⟩ : Shape).Idx → α) (h : (⟨2, ![a, b]⟩ : Shape).Transposes [1, 0] ⟨2, ![b, a]⟩)
    (p : Fin b) (q : Fin a) : transpose ⟨2, ![b, a]⟩ [1, 0] x h (ix2 p q) = x (ix2 q p) :=
  transpose_apply [1, 0] x h _ _ (fun c => by
    match c with
    | ⟨0, _⟩ => rfl
    | ⟨1, _⟩ => rfl)

end Layout

end Cert.RowOps

end
-- ==== Proof.LibDense.lean ====
/-
  A dense layer read at one index, on the extended reals.

  A dense layer of a network multiplies an [M, K] array of rows by a [K, N] weight, adds a length-N bias to
  every row, and clips at zero.  Written over whole arrays (the host's `dot_general`, `broadcast_in_dim`,
  `maximum`) or over one block of rows (a `matmul` into a zero accumulator, a bias viewed as one row and
  repeated, a maximum with a splat zero), the entry at row r and column c is the same expression of row r of
  the input, column c of the weight and entry c of the bias.  Each lemma below reads one such spelling at
  (r, c).  The zero the maximum is taken with is kept as the value of the all-zero word.
-/
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import proofs.«177334_j34419867910897_2_alg».proof.Proof.LibRowOps

noncomputable section

namespace Cert.Dense

open Idealize.ShloMosaic Idealize.ShloMosaic.ValueIdx Cert.RowOps

/-- The value of the all-zero f32 word. -/
abbrev z : EReal := Ideal.ofBits .f32 0x00000000#32

/-! ## The host's matrix product -/

section Product

variable {M K N : Nat} {d : DotDims ⟨2, ![M, K]⟩ ⟨2, ![K, N]⟩ ⟨2, ![M, N]⟩}

/-- The host's plain matrix product at (r, c): the sum over the shared axis of the products. -/
theorem hostDot_apply (hd : IsPlain d) {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral d prec sched lhs rhs (ix2 r c) = ∑ k : Fin K, lhs (ix2 r k) * rhs (ix2 k c) := by
  rw [Ideal.dotGeneral_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Product

/-! ## A bias added to every row -/

section Bias

variable {α : Type} {a b : Nat}

/-- A length-b vector viewed as one [1, b] row and repeated over a rows reads, at (p, c), the vector at c. -/
theorem rowBias_apply (v : (⟨1, ![b]⟩ : Shape).Idx → α) (hs : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v hs) hb (ix2 p c) = v (ix1 c) := by
  rw [broadcastTo_1b_ab_apply]
  exact shapeCast_apply v hs _ _ (by
    rw [Shape.rowMajor_val_one, Shape.rowMajor_val_two]
    show c.val = 0 * b + c.val
    omega)

/-- The host's spelling: the vector broadcast to [1, b] along the second axis, then to [a, b]; at (p, c) the vector at c. -/
theorem hostRowBias_apply (v : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (c : Fin b) :
    broadcastInDim ⟨2, ![a, b]⟩ ![0, 1] h2 (broadcastInDim ⟨2, ![1, b]⟩ ![1] h1 v) (ix2 p c) = v (ix1 c) := by
  rw [broadcastInDim_apply ![0, 1] h2 _ (ix2 p c) (ix2 (0 : Fin 1) c) (fun ax => by
    match ax with
    | ⟨0, _⟩ => show (0 : Nat) = if (1 : Nat) = 1 then 0 else p.val; rw [if_pos rfl]
    | ⟨1, _⟩ =>
      show c.val = if b = 1 then 0 else c.val
      split
      · have := c.isLt; omega
      · rfl)]
  exact broadcastInDim_apply ![1] h1 v (ix2 (0 : Fin 1) c) (ix1 c) (fun ax => by
    match ax with
    | ⟨0, _⟩ =>
      show c.val = if b = 1 then 0 else c.val
      split
      · have := c.isLt; omega
      · rfl)

end Bias

/-! ## The four shapes of a layer, over whole arrays (the host's spelling) -/

section Host

variable {M K N : Nat} {d : DotDims ⟨2, ![M, K]⟩ ⟨2, ![K, N]⟩ ⟨2, ![M, N]⟩}

/-- Rows times weight plus bias, clipped at zero. -/
theorem hostEncode_apply (hd : IsPlain d) (X : FVec Ideal ⟨2, ![M, K]⟩ .f32) (W : FVec Ideal ⟨2, ![K, N]⟩ .f32)
    (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (r : Fin M) (c : Fin N) :
    maximumf (addf (Host.dotGeneral d none X W) (broadcastInDim ⟨2, ![M, N]⟩ ![0, 1] h2 (broadcastInDim ⟨2, ![1, N]⟩ ![1] h1 B)))
        (broadcastInDim ⟨2, ![M, N]⟩ ![] h0 (constant (F := Ideal) ⟨0, ![]⟩ .f32 0x00000000#32)) (ix2 r c)
      = max ((∑ k : Fin K, X (ix2 r k) * W (ix2 k c)) + B (ix1 c)) z := by
  rw [maximumf_apply, addf_apply, hostRowBias_apply, broadcastInDim_scalar_apply, constant_apply]
  exact congrArg (fun s => max (s + B (ix1 c)) z) (hostDot_apply hd none .single X W r c)

/-- Input plus bias clipped at zero, at one index. -/
theorem hostActivate_apply (X : FVec Ideal ⟨2, ![M, K]⟩ .f32) (B : FVec Ideal ⟨1, ![K]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![]) (r : Fin M) (k : Fin K) :
    maximumf (addf X (broadcastInDim ⟨2, ![M, K]⟩ ![0, 1] h2 (broadcastInDim ⟨2, ![1, K]⟩ ![1] h1 B)))
        (broadcastInDim ⟨2, ![M, K]⟩ ![] h0 (constant (F := Ideal) ⟨0, ![]⟩ .f32 0x00000000#32)) (ix2 r k)
      = max (X (ix2 r k) + B (ix1 k)) z := by
  rw [maximumf_apply, addf_apply, hostRowBias_apply, broadcastInDim_scalar_apply, constant_apply]

/-- Input plus bias clipped at zero, times weight. -/
theorem hostLayer_apply (hd : IsPlain d) (X : FVec Ideal ⟨2, ![M, K]⟩ .f32) (B : FVec Ideal ⟨1, ![K]⟩ .f32)
    (W : FVec Ideal ⟨2, ![K, N]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![]) (r : Fin M) (c : Fin N) :
    Host.dotGeneral d none (maximumf (addf X (broadcastInDim ⟨2, ![M, K]⟩ ![0, 1] h2 (broadcastInDim ⟨2, ![1, K]⟩ ![1] h1 B)))
        (broadcastInDim ⟨2, ![M, K]⟩ ![] h0 (constant (F := Ideal) ⟨0, ![]⟩ .f32 0x00000000#32))) W (ix2 r c)
      = ∑ k : Fin K, max (X (ix2 r k) + B (ix1 k)) z * W (ix2 k c) := by
  refine (hostDot_apply hd none .single _ W r c).trans (Finset.sum_congr rfl fun k _ => ?_)
  rw [hostActivate_apply]

/-- Input plus bias clipped at zero, times weight, plus a second bias. -/
theorem hostDecode_apply (hd : IsPlain d) (X : FVec Ideal ⟨2, ![M, K]⟩ .f32) (B : FVec Ideal ⟨1, ![K]⟩ .f32)
    (W : FVec Ideal ⟨2, ![K, N]⟩ .f32) (B2 : FVec Ideal ⟨1, ![N]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![])
    (g1 : (⟨1, ![N]⟩ : Shape).BroadcastsInDim ⟨2, ![1, N]⟩ ![1])
    (g2 : (⟨2, ![1, N]⟩ : Shape).BroadcastsInDim ⟨2, ![M, N]⟩ ![0, 1]) (r : Fin M) (c : Fin N) :
    addf (Host.dotGeneral d none (maximumf (addf X (broadcastInDim ⟨2, ![M, K]⟩ ![0, 1] h2 (broadcastInDim ⟨2, ![1, K]⟩ ![1] h1 B)))
        (broadcastInDim ⟨2, ![M, K]⟩ ![] h0 (constant (F := Ideal) ⟨0, ![]⟩ .f32 0x00000000#32))) W)
        (broadcastInDim ⟨2, ![M, N]⟩ ![0, 1] g2 (broadcastInDim ⟨2, ![1, N]⟩ ![1] g1 B2)) (ix2 r c)
      = (∑ k : Fin K, max (X (ix2 r k) + B (ix1 k)) z * W (ix2 k c)) + B2 (ix1 c) := by
  rw [addf_apply, hostRowBias_apply, hostLayer_apply hd]

end Host

/-! ## The same four shapes over one block of rows (the kernel's spelling) -/

section Block

variable {M K N : Nat} {d : DotDims ⟨2, ![M, K]⟩ ⟨2, ![K, N]⟩ ⟨2, ![M, N]⟩}

/-- Rows times weight plus bias, clipped at zero. -/
theorem blockEncode_apply (hd : IsPlain d) (x : FVec Ideal ⟨2, ![M, K]⟩ .f32) (w : FVec Ideal ⟨2, ![K, N]⟩ .f32)
    (b : FVec Ideal ⟨1, ![N]⟩ .f32)
    (hs : (⟨1, ![N]⟩ : Shape).ShapeCasts ⟨2, ![1, N]⟩) (hb : (⟨2, ![1, N]⟩ : Shape).Broadcasts ⟨2, ![M, N]⟩)
    (r : Fin M) (c : Fin N) :
    maximumf (addf (matmul d none x w (constant ⟨2, ![M, N]⟩ .f32 0x00000000#32))
        (broadcastTo ⟨2, ![M, N]⟩ (shapeCast ⟨2, ![1, N]⟩ b hs) hb))
        (broadcast ⟨2, ![M, N]⟩ (Scalar.ofBits (F := Ideal) .f32 0x00000000#32)) (ix2 r c)
      = max ((∑ k : Fin K, x (ix2 r k) * w (ix2 k c)) + b (ix1 c)) z := by
  rw [maximumf_apply, addf_apply, rowBias_apply, broadcast_apply]
  exact congrArg (fun s => max (s + b (ix1 c)) z) (matmul_zero_apply hd none x w r c)

/-- Input plus bias clipped at zero, at one index. -/
theorem blockActivate_apply (x : FVec Ideal ⟨2, ![M, K]⟩ .f32) (b : FVec Ideal ⟨1, ![K]⟩ .f32)
    (hs : (⟨1, ![K]⟩ : Shape).ShapeCasts ⟨2, ![1, K]⟩) (hb : (⟨2, ![1, K]⟩ : Shape).Broadcasts ⟨2, ![M, K]⟩)
    (r : Fin M) (k : Fin K) :
    maximumf (addf x (broadcastTo ⟨2, ![M, K]⟩ (shapeCast ⟨2, ![1, K]⟩ b hs) hb))
        (broadcast ⟨2, ![M, K]⟩ (Scalar.ofBits (F := Ideal) .f32 0x00000000#32)) (ix2 r k)
      = max (x (ix2 r k) + b (ix1 k)) z := by
  rw [maximumf_apply, addf_apply, rowBias_apply, broadcast_apply]
  rfl

/-- Input plus bias clipped at zero, times weight. -/
theorem blockLayer_apply (hd : IsPlain d) (x : FVec Ideal ⟨2, ![M, K]⟩ .f32) (b : FVec Ideal ⟨1, ![K]⟩ .f32)
    (w : FVec Ideal ⟨2, ![K, N]⟩ .f32)
    (hs : (⟨1, ![K]⟩ : Shape).ShapeCasts ⟨2, ![1, K]⟩) (hb : (⟨2, ![1, K]⟩ : Shape).Broadcasts ⟨2, ![M, K]⟩)
    (r : Fin M) (c : Fin N) :
    matmul d none (maximumf (addf x (broadcastTo ⟨2, ![M, K]⟩ (shapeCast ⟨2, ![1, K]⟩ b hs) hb))
        (broadcast ⟨2, ![M, K]⟩ (Scalar.ofBits (F := Ideal) .f32 0x00000000#32))) w
        (constant ⟨2, ![M, N]⟩ .f32 0x00000000#32) (ix2 r c)
      = ∑ k : Fin K, max (x (ix2 r k) + b (ix1 k)) z * w (ix2 k c) := by
  refine (matmul_zero_apply hd none _ w r c).trans (Finset.sum_congr rfl fun k _ => ?_)
  rw [blockActivate_apply]

/-- Input plus bias clipped at zero, times weight, plus a second bias. -/
theorem blockDecode_apply (hd : IsPlain d) (x : FVec Ideal ⟨2, ![M, K]⟩ .f32) (b : FVec Ideal ⟨1, ![K]⟩ .f32)
    (w : FVec Ideal ⟨2, ![K, N]⟩ .f32) (b2 : FVec Ideal ⟨1, ![N]⟩ .f32)
    (hs : (⟨1, ![K]⟩ : Shape).ShapeCasts ⟨2, ![1, K]⟩) (hb : (⟨2, ![1, K]⟩ : Shape).Broadcasts ⟨2, ![M, K]⟩)
    (gs : (⟨1, ![N]⟩ : Shape).ShapeCasts ⟨2, ![1, N]⟩) (gb : (⟨2, ![1, N]⟩ : Shape).Broadcasts ⟨2, ![M, N]⟩)
    (r : Fin M) (c : Fin N) :
    addf (matmul d none (maximumf (addf x (broadcastTo ⟨2, ![M, K]⟩ (shapeCast ⟨2, ![1, K]⟩ b hs) hb))
        (broadcast ⟨2, ![M, K]⟩ (Scalar.ofBits (F := Ideal) .f32 0x00000000#32))) w
        (constant ⟨2, ![M, N]⟩ .f32 0x00000000#32))
        (broadcastTo ⟨2, ![M, N]⟩ (shapeCast ⟨2, ![1, N]⟩ b2 gs) gb) (ix2 r c)
      = (∑ k : Fin K, max (x (ix2 r k) + b (ix1 k)) z * w (ix2 k c)) + b2 (ix1 c) := by
  rw [addf_apply, rowBias_apply, blockLayer_apply hd]

end Block

end Cert.Dense

end
-- ==== Proof.LibSageLayer.lean ====
/-
  One layer of a mean-aggregating graph network, read at one index on the extended reals.

  A node's new feature vector is relu(mean · Wl + h · Wr + b): `mean` is the sum of the features of the node's
  in-neighbours divided by max(count, 1), `h` the node's own features, `b` a bias row.  Two spellings of the
  layer meet here.  One scales the neighbour sums by the reciprocal 1 / max(count, 1) and adds the two products
  before the bias; the other divides the sums by max(count, 1) and adds the bias between the products.  The
  divisor is at least 1, so it is never zero and the product with the reciprocal is the quotient on every
  extended real; addition of extended reals is commutative and associative, so the three summands may be
  added in either order.  No entry has to be finite for either step.
-/
import Idealize.ShloMosaic.PureOps.Ideal.Laws
import Idealize.ShloMosaic.PureOps.IdealRules
import Idealize.ShloMosaic.Lib.ValueIdx
import Idealize.ShloMosaic.Lib.ValueLayout
import Idealize.ShloMosaic.Lib.IdealHost
import Idealize.ShloMosaic.Lib.Pipeline.Value
import proofs.«177334_j34419867910897_2_alg».proof.Proof.LibRowOps
import proofs.«177334_j34419867910897_2_alg».proof.Proof.LibDense

noncomputable section

namespace Cert.Sage

open Idealize.ShloMosaic Idealize.ShloMosaic.ValueIdx Cert.RowOps Cert.Dense

/-- The value of the f32 word of 1.0. -/
abbrev one : EReal := Ideal.ofBits .f32 0x3F800000#32

theorem one_eq : one = 1 := IdealRules.sign_bit.ideal_onePat .f32

/-! ## The layer as one function of whole arrays -/

/-- relu(A · Wl + X · Wr + b) at (r, c): row r of `A` and of `X`, column c of the weights, entry c of the one-row bias. -/
def layer {M K N : Nat} (A X : FVec Ideal ⟨2, ![M, K]⟩ .f32) (Wl Wr : FVec Ideal ⟨2, ![K, N]⟩ .f32)
    (b : FVec Ideal ⟨2, ![1, N]⟩ .f32) : FVec Ideal ⟨2, ![M, N]⟩ .f32 :=
  fun i => max ((∑ k : Fin K, A (ix2 (i 0) k) * Wl (ix2 k (i 1))) + (∑ k : Fin K, X (ix2 (i 0) k) * Wr (ix2 k (i 1)))
    + b (ix2 (0 : Fin 1) (i 1))) z

theorem layer_apply {M K N : Nat} (A X : FVec Ideal ⟨2, ![M, K]⟩ .f32) (Wl Wr : FVec Ideal ⟨2, ![K, N]⟩ .f32)
    (b : FVec Ideal ⟨2, ![1, N]⟩ .f32) (r : Fin M) (c : Fin N) :
    layer A X Wl Wr b (ix2 r c)
      = max ((∑ k : Fin K, A (ix2 r k) * Wl (ix2 k c)) + (∑ k : Fin K, X (ix2 r k) * Wr (ix2 k c)) + b (ix2 (0 : Fin 1) c)) z := rfl

/-! ## One block of rows (a matmul into a zero accumulator twice, a one-row bias repeated, a maximum with a splat zero) -/

section Block

variable {M K N : Nat} {d : DotDims ⟨2, ![M, K]⟩ ⟨2, ![K, N]⟩ ⟨2, ![M, N]⟩}

theorem blockLayer_apply (hd : IsPlain d) {φ₁ φ₂ : FTy} (a x : FVec Ideal ⟨2, ![M, K]⟩ φ₁) (wl wr : FVec Ideal ⟨2, ![K, N]⟩ φ₂)
    (b : FVec Ideal ⟨2, ![1, N]⟩ .f32) (hb : (⟨2, ![1, N]⟩ : Shape).Broadcasts ⟨2, ![M, N]⟩) (r : Fin M) (c : Fin N) :
    maximumf (addf (addf (matmul d none a wl (constant ⟨2, ![M, N]⟩ .f32 0x00000000#32))
          (matmul d none x wr (constant ⟨2, ![M, N]⟩ .f32 0x00000000#32)))
        (broadcastTo ⟨2, ![M, N]⟩ b hb))
        (broadcast ⟨2, ![M, N]⟩ (Scalar.ofBits (F := Ideal) .f32 0x00000000#32)) (ix2 r c)
      = max ((∑ k : Fin K, a (ix2 r k) * wl (ix2 k c)) + (∑ k : Fin K, x (ix2 r k) * wr (ix2 k c)) + b (ix2 (0 : Fin 1) c)) z := by
  rw [maximumf_apply, addf_apply, addf_apply, broadcastTo_1b_ab_apply, broadcast_apply]
  exact congrArg₂ (fun s u => max (s + u + b (ix2 (0 : Fin 1) c)) z) (matmul_zero_apply hd none a wl r c)
    (matmul_zero_apply hd none x wr r c)

end Block

/-! ## A per-row column repeated along the rows -/

section Column

variable {α : Type} {a b : Nat}

/-- A length-a vector broadcast to an [a, 1] column and then to [a, b] reads, at (p, c), the vector at p. -/
theorem hostColumn_apply (v : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (c : Fin b) :
    broadcastInDim ⟨2, ![a, b]⟩ ![0, 1] h2 (broadcastInDim ⟨2, ![a, 1]⟩ ![0] h1 v) (ix2 p c) = v (ix1 p) := by
  rw [broadcastInDim_apply ![0, 1] h2 _ (ix2 p c) (ix2 p (0 : Fin 1)) (fun ax => by
    match ax with
    | ⟨0, _⟩ =>
      show p.val = if a = 1 then 0 else p.val
      split
      · have := p.isLt; omega
      · rfl
    | ⟨1, _⟩ => show (0 : Nat) = if (1 : Nat) = 1 then 0 else c.val; rw [if_pos rfl])]
  exact broadcastInDim_apply ![0] h1 v (ix2 p (0 : Fin 1)) (ix1 p) (fun ax => by
    match ax with
    | ⟨0, _⟩ =>
      show p.val = if a = 1 then 0 else p.val
      split
      · have := p.isLt; omega
      · rfl)

end Column

/-! ## The mean, two ways -/

/-- A product with the reciprocal of max(n, 1) is the quotient by max(n, 1): the divisor is at least 1, so not zero. -/
theorem mul_recip_max (x n : EReal) : x * Ideal.div one (max n one) = Ideal.div x (max n one) := by
  rw [one_eq]
  exact Idealize.ShloMosaic.Ideal.mul_one_div (lt_of_lt_of_le zero_lt_one (le_max_right n 1)).ne'

section Mean

variable {a b : Nat}

/-- Sums scaled by the per-row reciprocal of max(count, 1) are the sums divided by max(count, 1). -/
theorem mean_eq (S : FVec Ideal ⟨2, ![a, b]⟩ .f32) (cnt : FVec Ideal ⟨1, ![a]⟩ .f32)
    (h0 : (⟨0, ![]⟩ : Shape).BroadcastsInDim ⟨1, ![a]⟩ ![])
    (h1 : (⟨1, ![a]⟩ : Shape).BroadcastsInDim ⟨2, ![a, 1]⟩ ![0])
    (h2 : (⟨2, ![a, 1]⟩ : Shape).BroadcastsInDim ⟨2, ![a, b]⟩ ![0, 1]) :
    mulf S (broadcastInDim ⟨2, ![a, b]⟩ ![0, 1] h2 (broadcastInDim ⟨2, ![a, 1]⟩ ![0] h1
        (Host.divf (broadcastInDim ⟨1, ![a]⟩ ![] h0 (constant (F := Ideal) ⟨0, ![]⟩ .f32 0x3F800000#32))
          (maximumf cnt (broadcastInDim ⟨1, ![a]⟩ ![] h0 (constant (F := Ideal) ⟨0, ![]⟩ .f32 0x3F800000#32))))))
      = Host.divf S (broadcastInDim ⟨2, ![a, b]⟩ ![0, 1] h2 (broadcastInDim ⟨2, ![a, 1]⟩ ![0] h1
          (maximumf cnt (broadcastInDim ⟨1, ![a]⟩ ![] h0 (constant (F := Ideal) ⟨0, ![]⟩ .f32 0x3F800000#32))))) := by
  funext i
  obtain ⟨p, q, rfl⟩ : ∃ (p : Fin a) (q : Fin b), i = ix2 p q := ⟨i 0, i 1, eq_ix2 i⟩
  rw [mulf_apply, hostDivf_apply, hostColumn_apply, hostColumn_apply, hostDivf_apply, maximumf_apply,
    broadcastInDim_scalar_apply, constant_apply]
  exact mul_recip_max _ _

end Mean

/-! ## The layer over whole arrays in the host's spelling -/

section Host

variable {M K N : Nat} {d : DotDims ⟨2, ![M, K]⟩ ⟨2, ![K, N]⟩ ⟨2, ![M, N]⟩}

/-- mean · Wl, plus the bias on every row, plus X · Wr, clipped at zero, is `layer` with the bias viewed as one row. -/
theorem hostLayer_eq (hd : IsPlain d) (Mn X : FVec Ideal ⟨2, ![M, K]⟩ .f32) (Wl Wr : FVec Ideal ⟨2, ![K, N]⟩ .f32)
    (B : FVec Ideal ⟨1, ![N]⟩ .f32)
    (hs : (⟨1, ![N]⟩ : Shape).ShapeCasts ⟨2, ![1, N]⟩)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    layer Mn X Wl Wr (shapeCast ⟨2, ![1, N]⟩ B hs)
      = maximumf (addf (addf (Host.dotGeneral d none Mn Wl)
            (broadcastInDim ⟨2, ![M, N]⟩ ![0, 1] h2 (broadcastInDim ⟨2, ![1, N]⟩ ![1] h1 B)))
          (Host.dotGeneral d none X Wr))
        (broadcastInDim ⟨2, ![M, N]⟩ ![] h0 (constant (F := Ideal) ⟨0, ![]⟩ .f32 0x00000000#32)) := by
  funext i
  obtain ⟨r, c, rfl⟩ : ∃ (r : Fin M) (c : Fin N), i = ix2 r c := ⟨i 0, i 1, eq_ix2 i⟩
  rw [layer_apply, maximumf_apply, addf_apply, addf_apply, hostRowBias_apply, broadcastInDim_scalar_apply, constant_apply,
    show Host.dotGeneral d none Mn Wl (ix2 r c) = _ from hostDot_apply hd none .single Mn Wl r c,
    show Host.dotGeneral d none X Wr (ix2 r c) = _ from hostDot_apply hd none .single X Wr r c,
    shapeCast_a_1a_apply]
  exact congrArg (fun s => max s z) (add_right_comm _ _ _)

end Host

end Cert.Sage

end
-- ==== Proof.LibSageMlp.lean ====
/-
  A mean-aggregating graph layer followed by a two-layer perceptron, read at one index on the extended reals.

  For one node the network computes
      h  = relu((s / max(n, 1)) · Wl + x · Wr + bl),   h' = relu(h · W1 + b1),   out = h' · W2 + b2,
  where x is the node's own feature row, s the sum of its in-neighbours' feature rows and n their number.  Entry c
  of `out` depends on the node's own three pieces of data and on the whole weights and biases only: `nodeOut` is that
  function.  Two spellings of the network are read here at (r, c) as `nodeOut` of row r: one over a block of rows
  (matrix products into a zero accumulator, biases held as one-row arrays and repeated over the rows, the count an
  [M, 1] column repeated along the features, maxima with a splat zero), one over whole arrays in the host's operations
  (`dot_general`, `broadcast_in_dim`, `divide`, `maximum`).  Both add the two products first and the bias last, so
  the two readings are the same expression term by term; no law of arithmetic is used.
-/
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import proofs.«177334_j34419867910897_2_alg».proof.Proof.LibRowOps
import proofs.«177334_j34419867910897_2_alg».proof.Proof.LibDense
import proofs.«177334_j34419867910897_2_alg».proof.Proof.LibSageLayer

noncomputable section

open scoped BigOperators

namespace Cert.SageMlp

open Idealize.ShloMosaic Idealize.ShloMosaic.ValueIdx Cert.RowOps Cert.Dense Cert.Sage

/-- Entry c of one node's output: `xr` the node's features, `sr` the sum of its in-neighbours' features, `n` their
    number; the zero of each relu is the value of the all-zero word and the 1 of max(n, 1) the value of the word of 1.0. -/
def nodeOut {K H H' N : Nat} (xr sr : Fin K → EReal) (n : EReal)
    (Wl Wr : (⟨2, ![K, H]⟩ : Shape).Idx → EReal) (bl : Fin H → EReal)
    (W1 : (⟨2, ![H, H']⟩ : Shape).Idx → EReal) (b1 : Fin H' → EReal)
    (W2 : (⟨2, ![H', N]⟩ : Shape).Idx → EReal) (b2 : Fin N → EReal) (c : Fin N) : EReal :=
  (∑ k : Fin H', max ((∑ j : Fin H, max ((∑ a : Fin K, Ideal.div (sr a) (max n one) * Wl (ix2 a j))
      + (∑ a : Fin K, xr a * Wr (ix2 a j)) + bl j) z * W1 (ix2 j k)) + b1 k) z * W2 (ix2 k c)) + b2 c

/-! ## Over one block of rows -/

section Block

variable {M K H H' N : Nat}

/-- The neighbour sums divided by max(count, 1), the count an [M, 1] column repeated along the features. -/
theorem blockMean_apply (a : FVec Ideal ⟨2, ![M, K]⟩ .f32) (dg : FVec Ideal ⟨2, ![M, 1]⟩ .f32)
    (ca : (⟨2, ![M, K]⟩ : Shape).ShapeCasts ⟨2, ![M, K]⟩) (cd : (⟨2, ![M, 1]⟩ : Shape).ShapeCasts ⟨2, ![M, 1]⟩)
    (bd : (⟨2, ![M, 1]⟩ : Shape).Broadcasts ⟨2, ![M, K]⟩) (r : Fin M) (i : Fin K) :
    divf (shapeCast ⟨2, ![M, K]⟩ a ca)
        (broadcastTo ⟨2, ![M, K]⟩ (maximumf (shapeCast ⟨2, ![M, 1]⟩ dg cd)
          (broadcast ⟨2, ![M, 1]⟩ (Scalar.ofBits (F := Ideal) .f32 0x3F800000#32))) bd) (ix2 r i)
      = Ideal.div (a (ix2 r i)) (max (dg (ix2 r (0 : Fin 1))) one) := by
  rw [divf_apply, shapeCast_self, spread_apply, maximumf_apply, shapeCast_self, broadcast_apply]
  rfl

variable {d1 : DotDims ⟨2, ![M, K]⟩ ⟨2, ![K, H]⟩ ⟨2, ![M, H]⟩} {d2 : DotDims ⟨2, ![M, H]⟩ ⟨2, ![H, H']⟩ ⟨2, ![M, H']⟩}
  {d3 : DotDims ⟨2, ![M, H']⟩ ⟨2, ![H', N]⟩ ⟨2, ![M, N]⟩}

/-- The network over a block of rows, at (r, c): `nodeOut` of row r of the block. -/
theorem blockNet_apply (h1 : IsPlain d1) (h2 : IsPlain d2) (h3 : IsPlain d3)
    (x a : FVec Ideal ⟨2, ![M, K]⟩ .f32) (dg : FVec Ideal ⟨2, ![M, 1]⟩ .f32)
    (wl wr : FVec Ideal ⟨2, ![K, H]⟩ .f32) (bl : FVec Ideal ⟨2, ![1, H]⟩ .f32)
    (w1 : FVec Ideal ⟨2, ![H, H']⟩ .f32) (b1 : FVec Ideal ⟨2, ![1, H']⟩ .f32)
    (w2 : FVec Ideal ⟨2, ![H', N]⟩ .f32) (b2 : FVec Ideal ⟨2, ![1, N]⟩ .f32)
    (ca : (⟨2, ![M, K]⟩ : Shape).ShapeCasts ⟨2, ![M, K]⟩) (cd : (⟨2, ![M, 1]⟩ : Shape).ShapeCasts ⟨2, ![M, 1]⟩)
    (bd : (⟨2, ![M, 1]⟩ : Shape).Broadcasts ⟨2, ![M, K]⟩)
    (cl : (⟨2, ![1, H]⟩ : Shape).ShapeCasts ⟨2, ![1, H]⟩) (el : (⟨2, ![1, H]⟩ : Shape).Broadcasts ⟨2, ![M, H]⟩)
    (c1 : (⟨2, ![1, H']⟩ : Shape).ShapeCasts ⟨2, ![1, H']⟩) (e1 : (⟨2, ![1, H']⟩ : Shape).Broadcasts ⟨2, ![M, H']⟩)
    (c2 : (⟨2, ![1, N]⟩ : Shape).ShapeCasts ⟨2, ![1, N]⟩) (e2 : (⟨2, ![1, N]⟩ : Shape).Broadcasts ⟨2, ![M, N]⟩)
    (r : Fin M) (c : Fin N) :
    addf (matmul d3 none
        (maximumf (addf (matmul d2 none
            (maximumf (addf (addf
                (matmul d1 none (divf (shapeCast ⟨2, ![M, K]⟩ a ca)
                    (broadcastTo ⟨2, ![M, K]⟩ (maximumf (shapeCast ⟨2, ![M, 1]⟩ dg cd)
                      (broadcast ⟨2, ![M, 1]⟩ (Scalar.ofBits (F := Ideal) .f32 0x3F800000#32))) bd))
                  wl (constant ⟨2, ![M, H]⟩ .f32 0x00000000#32))
                (matmul d1 none x wr (constant ⟨2, ![M, H]⟩ .f32 0x00000000#32)))
              (broadcastTo ⟨2, ![M, H]⟩ (shapeCast ⟨2, ![1, H]⟩ bl cl) el))
              (broadcast ⟨2, ![M, H]⟩ (Scalar.ofBits (F := Ideal) .f32 0x00000000#32)))
            w1 (constant ⟨2, ![M, H']⟩ .f32 0x00000000#32))
          (broadcastTo ⟨2, ![M, H']⟩ (shapeCast ⟨2, ![1, H']⟩ b1 c1) e1))
          (broadcast ⟨2, ![M, H']⟩ (Scalar.ofBits (F := Ideal) .f32 0x00000000#32)))
        w2 (constant ⟨2, ![M, N]⟩ .f32 0x00000000#32))
      (broadcastTo ⟨2, ![M, N]⟩ (shapeCast ⟨2, ![1, N]⟩ b2 c2) e2) (ix2 r c)
      = nodeOut (fun i => x (ix2 r i)) (fun i => a (ix2 r i)) (dg (ix2 r (0 : Fin 1))) wl wr
          (fun j => bl (ix2 (0 : Fin 1) j)) w1 (fun k => b1 (ix2 (0 : Fin 1) k)) w2 (fun q => b2 (ix2 (0 : Fin 1) q)) c := by
  unfold nodeOut
  rw [addf_apply, broadcastTo_1b_ab_apply, shapeCast_self b2 c2]
  refine congrArg (· + b2 (ix2 (0 : Fin 1) c)) ?_
  refine (matmul_zero_apply h3 none _ w2 r c).trans (Finset.sum_congr rfl fun k _ => ?_)
  rw [maximumf_apply, addf_apply, broadcastTo_1b_ab_apply, shapeCast_self b1 c1, broadcast_apply]
  refine congrArg (fun s => max (s + b1 (ix2 (0 : Fin 1) k)) z * w2 (ix2 k c)) ?_
  refine (matmul_zero_apply h2 none _ w1 r k).trans (Finset.sum_congr rfl fun j _ => ?_)
  rw [Sage.blockLayer_apply h1, shapeCast_self bl cl]
  refine congrArg (fun s => max (s + (∑ i : Fin K, x (ix2 r i) * wr (ix2 i j)) + bl (ix2 (0 : Fin 1) j)) z * w1 (ix2 j k))
    (Finset.sum_congr rfl fun i _ => ?_)
  rw [blockMean_apply]

end Block

/-! ## Over whole arrays, in the host's operations -/

section Host

variable {M K H H' N : Nat}

/-- The neighbour sums divided by max(count, 1), the count a length-M vector made a column and repeated. -/
theorem hostMean_apply (S : FVec Ideal ⟨2, ![M, K]⟩ .f32) (D : FVec Ideal ⟨1, ![M]⟩ .f32)
    (g0 : (⟨0, ![]⟩ : Shape).BroadcastsInDim ⟨1, ![M]⟩ ![])
    (g1 : (⟨1, ![M]⟩ : Shape).BroadcastsInDim ⟨2, ![M, 1]⟩ ![0])
    (g2 : (⟨2, ![M, 1]⟩ : Shape).BroadcastsInDim ⟨2, ![M, K]⟩ ![0, 1]) (r : Fin M) (i : Fin K) :
    Host.divf S (broadcastInDim ⟨2, ![M, K]⟩ ![0, 1] g2 (broadcastInDim ⟨2, ![M, 1]⟩ ![0] g1
        (maximumf D (broadcastInDim ⟨1, ![M]⟩ ![] g0 (constant (F := Ideal) ⟨0, ![]⟩ .f32 0x3F800000#32))))) (ix2 r i)
      = Ideal.div (S (ix2 r i)) (max (D (ix1 r)) one) := by
  rw [hostDivf_apply, hostColumn_apply, maximumf_apply, broadcastInDim_scalar_apply, constant_apply]

variable {d1 : DotDims ⟨2, ![M, K]⟩ ⟨2, ![K, H]⟩ ⟨2, ![M, H]⟩} {d2 : DotDims ⟨2, ![M, H]⟩ ⟨2, ![H, H']⟩ ⟨2, ![M, H']⟩}
  {d3 : DotDims ⟨2, ![M, H']⟩ ⟨2, ![H', N]⟩ ⟨2, ![M, N]⟩}

/-- The first layer over whole arrays at (r, j): the two products added, then the bias, clipped at zero. -/
theorem hostFirst_apply (h1 : IsPlain d1) (A X : FVec Ideal ⟨2, ![M, K]⟩ .f32) (Wl Wr : FVec Ideal ⟨2, ![K, H]⟩ .f32)
    (Bl : FVec Ideal ⟨1, ![H]⟩ .f32)
    (p1 : (⟨1, ![H]⟩ : Shape).BroadcastsInDim ⟨2, ![1, H]⟩ ![1])
    (p2 : (⟨2, ![1, H]⟩ : Shape).BroadcastsInDim ⟨2, ![M, H]⟩ ![0, 1])
    (p0 : (⟨0, ![]⟩ : Shape).BroadcastsInDim ⟨2, ![M, H]⟩ ![]) (r : Fin M) (j : Fin H) :
    maximumf (addf (addf (Host.dotGeneral d1 none A Wl) (Host.dotGeneral d1 none X Wr))
          (broadcastInDim ⟨2, ![M, H]⟩ ![0, 1] p2 (broadcastInDim ⟨2, ![1, H]⟩ ![1] p1 Bl)))
        (broadcastInDim ⟨2, ![M, H]⟩ ![] p0 (constant (F := Ideal) ⟨0, ![]⟩ .f32 0x00000000#32)) (ix2 r j)
      = max ((∑ a : Fin K, A (ix2 r a) * Wl (ix2 a j)) + (∑ a : Fin K, X (ix2 r a) * Wr (ix2 a j)) + Bl (ix1 j)) z := by
  rw [maximumf_apply, addf_apply, addf_apply, hostRowBias_apply, broadcastInDim_scalar_apply, constant_apply,
    show Host.dotGeneral d1 none A Wl (ix2 r j) = _ from hostDot_apply h1 none .single A Wl r j,
    show Host.dotGeneral d1 none X Wr (ix2 r j) = _ from hostDot_apply h1 none .single X Wr r j]

/-- The network over whole arrays, at (r, c): `nodeOut` of row r. -/
theorem hostNet_apply (h1 : IsPlain d1) (h2 : IsPlain d2) (h3 : IsPlain d3)
    (X S : FVec Ideal ⟨2, ![M, K]⟩ .f32) (D : FVec Ideal ⟨1, ![M]⟩ .f32)
    (Wl Wr : FVec Ideal ⟨2, ![K, H]⟩ .f32) (Bl : FVec Ideal ⟨1, ![H]⟩ .f32)
    (W1 : FVec Ideal ⟨2, ![H, H']⟩ .f32) (B1 : FVec Ideal ⟨1, ![H']⟩ .f32)
    (W2 : FVec Ideal ⟨2, ![H', N]⟩ .f32) (B2 : FVec Ideal ⟨1, ![N]⟩ .f32)
    (g0 : (⟨0, ![]⟩ : Shape).BroadcastsInDim ⟨1, ![M]⟩ ![])
    (g1 : (⟨1, ![M]⟩ : Shape).BroadcastsInDim ⟨2, ![M, 1]⟩ ![0])
    (g2 : (⟨2, ![M, 1]⟩ : Shape).BroadcastsInDim ⟨2, ![M, K]⟩ ![0, 1])
    (p1 : (⟨1, ![H]⟩ : Shape).BroadcastsInDim ⟨2, ![1, H]⟩ ![1])
    (p2 : (⟨2, ![1, H]⟩ : Shape).BroadcastsInDim ⟨2, ![M, H]⟩ ![0, 1])
    (p0 : (⟨0, ![]⟩ : Shape).BroadcastsInDim ⟨2, ![M, H]⟩ ![])
    (q1 : (⟨1, ![H']⟩ : Shape).BroadcastsInDim ⟨2, ![1, H']⟩ ![1])
    (q2 : (⟨2, ![1, H']⟩ : Shape).BroadcastsInDim ⟨2, ![M, H']⟩ ![0, 1])
    (q0 : (⟨0, ![]⟩ : Shape).BroadcastsInDim ⟨2, ![M, H']⟩ ![])
    (s1 : (⟨1, ![N]⟩ : Shape).BroadcastsInDim ⟨2, ![1, N]⟩ ![1])
    (s2 : (⟨2, ![1, N]⟩ : Shape).BroadcastsInDim ⟨2, ![M, N]⟩ ![0, 1]) (r : Fin M) (c : Fin N) :
    addf (Host.dotGeneral d3 none
        (maximumf (addf (Host.dotGeneral d2 none
            (maximumf (addf (addf
                (Host.dotGeneral d1 none (Host.divf S (broadcastInDim ⟨2, ![M, K]⟩ ![0, 1] g2
                    (broadcastInDim ⟨2, ![M, 1]⟩ ![0] g1 (maximumf D (broadcastInDim ⟨1, ![M]⟩ ![] g0
                      (constant (F := Ideal) ⟨0, ![]⟩ .f32 0x3F800000#32)))))) Wl)
                (Host.dotGeneral d1 none X Wr))
              (broadcastInDim ⟨2, ![M, H]⟩ ![0, 1] p2 (broadcastInDim ⟨2, ![1, H]⟩ ![1] p1 Bl)))
              (broadcastInDim ⟨2, ![M, H]⟩ ![] p0 (constant (F := Ideal) ⟨0, ![]⟩ .f32 0x00000000#32)))
            W1)
          (broadcastInDim ⟨2, ![M, H']⟩ ![0, 1] q2 (broadcastInDim ⟨2, ![1, H']⟩ ![1] q1 B1)))
          (broadcastInDim ⟨2, ![M, H']⟩ ![] q0 (constant (F := Ideal) ⟨0, ![]⟩ .f32 0x00000000#32)))
        W2)
      (broadcastInDim ⟨2, ![M, N]⟩ ![0, 1] s2 (broadcastInDim ⟨2, ![1, N]⟩ ![1] s1 B2)) (ix2 r c)
      = nodeOut (fun i => X (ix2 r i)) (fun i => S (ix2 r i)) (D (ix1 r)) Wl Wr (fun j => Bl (ix1 j)) W1
          (fun k => B1 (ix1 k)) W2 (fun q => B2 (ix1 q)) c := by
  unfold nodeOut
  rw [hostDecode_apply h3]
  refine congrArg (· + B2 (ix1 c)) (Finset.sum_congr rfl fun k _ => ?_)
  refine congrArg (fun s => max (s + B1 (ix1 k)) z * W2 (ix2 k c)) ?_
  refine (hostDot_apply h2 none .single _ W1 r k).trans (Finset.sum_congr rfl fun j _ => ?_)
  rw [hostFirst_apply h1]
  refine congrArg (fun s => max (s + (∑ i : Fin K, X (ix2 r i) * Wr (ix2 i j)) + Bl (ix1 j)) z * W1 (ix2 j k))
    (Finset.sum_congr rfl fun i _ => ?_)
  rw [hostMean_apply]

end Host

end Cert.SageMlp

end
-- ==== Proof.KernelArrays.lean ====
/-
  The arrays the fused kernel's windows stage, as the host operations before the launch leave them.

  Before the launch the host appends a column of ones to the node features, takes for every edge the source's
  extended row, adds the rows up at the destinations from zero, and cuts the result in two: its first 128 columns
  are the sums of the in-neighbours' features, its last column — a sum of ones — the number of in-neighbours.  The
  three biases are viewed as one-row arrays.  Each lemma below names what one window's array holds and reads it at
  an index: the neighbour sums and the counts as sums over the edges that arrive at the node.
-/
import proofs.«177334_j34419867910897_2_alg».proof.Proof.Gen.KernelIdeal.Value
import Idealize.ShloMosaic.Lib.StableHlo.Run
import Idealize.ShloMosaic.Lib.ValueLayout
import Idealize.ShloMosaic.Lib.IdealHost
import proofs.«177334_j34419867910897_2_alg».proof.Proof.LibEdgeSums
import proofs.«177334_j34419867910897_2_alg».proof.Proof.LibSageMlp

noncomputable section

open scoped BigOperators

namespace Cert.KernelIdeal.Arrays

open Cert.KernelIdeal Cert.KernelIdeal.Gen Idealize.ShloMosaic Idealize.ShloMosaic.TcCoe Idealize.SL.Sem
  Idealize.ShloMosaic.StableHlo Idealize.ShloMosaic.ValueIdx Cert.EdgeSums

/-! ## The edge list read as two index columns -/

/-- Row 0 of the edge list as a flat vector: the sources as given. -/
def rawSrc (ei : S2x800000.Idx → BitVec 32) : S800000.Idx → BitVec 32 :=
  shapeCast S800000 (extractStridedSlice S1x800000 ![0, 0] ei slices_S2x800000_S1x800000_0_0) shapeCasts_S1x800000_S800000

/-- The sources as an [E, 1] column of start indices, a negative one moved up by the number of nodes. -/
def srcIdx (ei : S2x800000.Idx → BitVec 32) : S800000x1.Idx → BitVec 32 :=
  broadcastInDim S800000x1 ![0] bcast_S800000_S800000x1_0
    (select (cmpi .slt (rawSrc ei) (broadcastInDim S800000 ![] bcast_S_S800000 (constantI S_ 32 0#32)))
      (addi (rawSrc ei) (broadcastInDim S800000 ![] bcast_S_S800000 (constantI S_ 32 50000#32))) (rawSrc ei))

/-- The destinations as an [E, 1] column: row 1 of the edge list, as given. -/
def dstIdx (ei : S2x800000.Idx → BitVec 32) : S800000x1.Idx → BitVec 32 :=
  broadcastInDim S800000x1 ![0] bcast_S800000_S800000x1_0
    (shapeCast S800000 (extractStridedSlice S1x800000 ![1, 0] ei slices_S2x800000_S1x800000_1_0) shapeCasts_S1x800000_S800000)

/-! ## Features with a column of ones, gathered and added up -/

/-- The node features with a column of ones appended. -/
def withOnes (x : S50000x128.Idx → EReal) : S50000x129.Idx → EReal :=
  concatenate S50000x129 1 [⟨S50000x128, x⟩,
    ⟨S50000x1, broadcastInDim S50000x1 ![] bcast_S_S50000x1 (constant (F := Ideal) S_ .f32 0x3F800000#32)⟩]
    concatenates_S50000x128_S50000x1_S50000x129_d1

/-- The extended rows taken at the sources and added at the destinations, from zero. -/
def aggregated (x : S50000x128.Idx → EReal) (ei : S2x800000.Idx → BitVec 32) : S50000x129.Idx → EReal :=
  Host.scatterAdd (F := Ideal) scatter_S50000x129_S800000x1_S800000x129_1_0_0_1
    (broadcastInDim S50000x129 ![] bcast_S_S50000x129 (constant (F := Ideal) S_ .f32 0x00000000#32)) (dstIdx ei)
    (Host.gather gather_S50000x129_S800000x1_S800000x129_1_0_n_n_0_1_1129 (withOnes x) (srcIdx ei))

variable (m : (ℓ : Loc nD τ sig) → Buf (Elt Ideal) ℓ) (c : Dev nD)

/-! ## What each window's array holds -/

set_option maxRecDepth 8192 in
set_option maxHeartbeats 4000000 in
/-- Window 1's array: the first 128 columns of the aggregated rows. -/
theorem sums_eq : (V m c main_v16 : S50000x128.Idx → EReal)
    = extractStridedSlice S50000x128 ![0, 0]
        (aggregated (m ((c : Thread nD τ).loc main_arg0)) (m ((c : Thread nD τ).loc main_arg1)))
        slices_S50000x129_S50000x128_0_0 := by
  show StableHlo.after hostOps0 (fun b => m (c, b)) (Proc.devRef .tc main_v16) = _
  after_results_simp <;> rfl

set_option maxRecDepth 8192 in
set_option maxHeartbeats 4000000 in
/-- Window 2's array: the last column of the aggregated rows. -/
theorem counts_eq : (V m c main_v17 : S50000x1.Idx → EReal)
    = extractStridedSlice S50000x1 ![0, 128]
        (aggregated (m ((c : Thread nD τ).loc main_arg0)) (m ((c : Thread nD τ).loc main_arg1)))
        slices_S50000x129_S50000x1_0_128 := by
  show StableHlo.after hostOps0 (fun b => m (c, b)) (Proc.devRef .tc main_v17) = _
  after_results_simp <;> rfl

set_option maxRecDepth 8192 in
set_option maxHeartbeats 4000000 in
/-- Window 4's array: the first layer's bias as one row. -/
theorem bias0_eq : (V m c main_v18 : S1x256.Idx → EReal)
    = shapeCast S1x256 (m ((c : Thread nD τ).loc main_arg3) : S256.Idx → EReal) shapeCasts_S256_S1x256 := by
  show StableHlo.after hostOps0 (fun b => m (c, b)) (Proc.devRef .tc main_v18) = _
  after_results_simp <;> rfl

set_option maxRecDepth 8192 in
set_option maxHeartbeats 4000000 in
/-- Window 7's array: the second layer's bias as one row. -/
theorem bias1_eq : (V m c main_v19 : S1x256.Idx → EReal)
    = shapeCast S1x256 (m ((c : Thread nD τ).loc main_arg6) : S256.Idx → EReal) shapeCasts_S256_S1x256 := by
  show StableHlo.after hostOps0 (fun b => m (c, b)) (Proc.devRef .tc main_v19) = _
  after_results_simp <;> rfl

set_option maxRecDepth 8192 in
set_option maxHeartbeats 4000000 in
/-- Window 9's array: the last layer's bias as one row. -/
theorem bias2_eq : (V m c main_v20 : S1x128.Idx → EReal)
    = shapeCast S1x128 (m ((c : Thread nD τ).loc main_arg8) : S128.Idx → EReal) shapeCasts_S128_S1x128 := by
  show StableHlo.after hostOps0 (fun b => m (c, b)) (Proc.devRef .tc main_v20) = _
  after_results_simp <;> rfl

end Cert.KernelIdeal.Arrays

end
-- ==== Proof.KernelReads.lean ====
/-
  What each window's block holds at a grid point, read at an index.

  The grid has ten points; at point t the three row-wise windows (features, neighbour sums, counts) and the output
  window hold rows 5000·t … 5000·t + 4999 of their arrays, and the seven weight and bias windows hold their arrays
  whole.  Row p of a row-wise block is therefore row 5000·t + p of the array, whose neighbour sums and count are the
  sums over the edges that arrive at that node.
-/
import proofs.«177334_j34419867910897_2_alg».proof.Proof.KernelArrays

noncomputable section

open scoped BigOperators

namespace Cert.KernelIdeal.Arrays

open Cert.KernelIdeal Cert.KernelIdeal.Gen Idealize.ShloMosaic Idealize.ShloMosaic.TcCoe Idealize.SL.Sem
  Idealize.ShloMosaic.ValueIdx Cert.Dense Cert.Sage Cert.EdgeSums

/-! ## The extended features and the aggregated rows at an index -/

/-- In the first 128 columns the extended features are the features. -/
theorem withOnes_left (x : S50000x128.Idx → EReal) (r : Fin 50000) (j : Fin 128) :
    withOnes x (ix2 r (⟨j.val, by omega⟩ : Fin 129)) = x (ix2 r j) :=
  concatenate_pair_apply_left (1 : Fin 2) x _ concatenates_S50000x128_S50000x1_S50000x129_d1
    (ix2 r (⟨j.val, by omega⟩ : Fin 129)) rfl (ix2 r j) (fun b => match b with | ⟨0, _⟩ => rfl | ⟨1, _⟩ => rfl)

/-- The last column of the extended features is the value of the word of 1.0. -/
theorem withOnes_last (x : S50000x128.Idx → EReal) (r : Fin 50000) :
    withOnes x (ix2 r (⟨128, by decide⟩ : Fin 129)) = one := by
  unfold withOnes
  rw [concatenate_pair_apply_right (t := S50000x129) (s₁ := S50000x128) (s₂ := S50000x1) (1 : Fin 2) x
    (broadcastInDim S50000x1 ![] bcast_S_S50000x1 (constant (F := Ideal) S_ .f32 0x3F800000#32))
    concatenates_S50000x128_S50000x1_S50000x129_d1
    (ix2 r (⟨128, by decide⟩ : Fin 129)) rfl rfl (ix2 r (0 : Fin 1))
    (fun b hb => match b, hb with | ⟨0, _⟩, _ => rfl | ⟨1, _⟩, hb => absurd rfl hb) rfl]
  rw [broadcastInDim_scalar_apply, constant_apply]

/-- The aggregated rows as a whole array: the exact scatter, from zero, of the extended rows gathered at the sources. -/
theorem aggregated_fun (x : S50000x128.Idx → EReal) (ei : S2x800000.Idx → BitVec 32) :
    aggregated x ei
      = Ideal.hostScatterAdd (rowScatterDims 50000 129 800000 scatter_S50000x129_S800000x1_S800000x129_1_0_0_1_wf)
          (broadcastInDim S50000x129 ![] bcast_S_S50000x129 (constant (F := Ideal) S_ .f32 0x00000000#32)) (dstIdx ei)
          (Host.gather (rowGatherDims 50000 129 800000 gather_S50000x129_S800000x1_S800000x129_1_0_n_n_0_1_1129_wf)
            (withOnes x) (srcIdx ei)) := rfl

/-- The aggregated rows at (n, q): from zero, what arrives at n in column q of the extended features. -/
theorem aggregated_apply (x : S50000x128.Idx → EReal) (ei : S2x800000.Idx → BitVec 32) (n : Fin 50000) (q : Fin 129) :
    aggregated x ei (ix2 n q) = z + rowsInto (by decide : 0 < 50000) (withOnes x) (srcIdx ei) (dstIdx ei) n q := by
  rw [aggregated_fun, gatherScatter_apply (by decide : 0 < 50000), broadcastInDim_scalar_apply]
  exact congrArg (· + rowsInto _ (withOnes x) _ _ n q)
    (rfl : constant (F := Ideal) S_ .f32 0x00000000#32 ix0 = z)

variable (m : (ℓ : Loc nD τ sig) → Buf (Elt Ideal) ℓ) (c : Dev nD)

/-- The neighbour sums' array at (n, j): from zero, what arrives at n in feature column j. -/
theorem sums_apply (n : Fin 50000) (j : Fin 128) :
    (V m c main_v16 : S50000x128.Idx → EReal) (ix2 n j)
      = z + rowsInto (by decide : 0 < 50000) (m ((c : Thread nD τ).loc main_arg0) : S50000x128.Idx → EReal)
          (srcIdx (m ((c : Thread nD τ).loc main_arg1))) (dstIdx (m ((c : Thread nD τ).loc main_arg1))) n j := by
  rw [sums_eq m c, extractStridedSlice_apply ![0, 0] _ slices_S50000x129_S50000x128_0_0 (ix2 n j)
    (ix2 n (⟨j.val, by omega⟩ : Fin 129)) (fun a => match a with
      | ⟨0, _⟩ => by show n.val = 0 + n.val; omega
      | ⟨1, _⟩ => by show j.val = 0 + j.val; omega),
    aggregated_apply]
  exact congrArg (z + ·) (rowsInto_congr _ _ _ _ _ n _ j fun r => withOnes_left _ r j)

/-- The counts' array at (n, 0): from zero, the weight 1.0 per edge that arrives at n. -/
theorem counts_apply (n : Fin 50000) :
    (V m c main_v17 : S50000x1.Idx → EReal) (ix2 n (0 : Fin 1))
      = z + weightInto (dstIdx (m ((c : Thread nD τ).loc main_arg1))) (fun _ => one) n := by
  rw [counts_eq m c, extractStridedSlice_apply ![0, 128] _ slices_S50000x129_S50000x1_0_128 (ix2 n (0 : Fin 1))
    (ix2 n (⟨128, by decide⟩ : Fin 129)) (fun a => match a with
      | ⟨0, _⟩ => by show n.val = 0 + n.val; omega
      | ⟨1, _⟩ => by show 128 = 128 + 0; rfl),
    aggregated_apply]
  exact congrArg (z + ·) (rowsInto_const _ _ _ _ n _ one fun r => withOnes_last _ r)

/-! ## The grid's index maps -/

/-- The printed index maps, decided over the ten points: the row-wise windows move with the output window, which is
    at block t; every other coordinate is 0. -/
theorem grid_facts : ∀ t : Fin cfg0.N,
    win0_0.index t (0 : Fin 2) = win0_10.index t (0 : Fin 2) ∧ win0_0.index t (1 : Fin 2) = 0
    ∧ win0_1.index t (0 : Fin 2) = win0_10.index t (0 : Fin 2) ∧ win0_1.index t (1 : Fin 2) = 0
    ∧ win0_2.index t (0 : Fin 2) = win0_10.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = t.val ∧ win0_10.index t (1 : Fin 2) = 0 ∧ t.val ≤ 9 :=
  (by decide +kernel : ∀ t : Fin grid0.N, _)

/-! ## Row-wise blocks -/

/-- A block of the neighbour sums' window reads ANY array under it where the block's index sits. -/
theorem sums_read (X : S50000x128.Idx → EReal) (t : Fin cfg0.N) (y : S5000x128.Idx) :
    (((cfg0.win 1).blk t).view.read (Elt Ideal) X : S5000x128.Idx → EReal) y
      = X (((cfg0.win 1).blk t).view.emb y) := rfl

/-- A block of the counts' window reads ANY array under it where the block's index sits. -/
theorem counts_read (X : S50000x1.Idx → EReal) (t : Fin cfg0.N) (y : S5000x1.Idx) :
    (((cfg0.win 2).blk t).view.read (Elt Ideal) X : S5000x1.Idx → EReal) y
      = X (((cfg0.win 2).blk t).view.emb y) := rfl

/-- Row p of the features' block at point t is row R = 5000·t + p of the features. -/
theorem features_blk (t : Fin cfg0.N) (p : Fin 5000) (a : Fin 128) (R : Fin 50000)
    (hR : R.val = win0_10.index t (0 : Fin 2) * 5000 + p.val) :
    (iblk m c 0 t : S5000x128.Idx → EReal) (ix2 p a)
      = (m ((c : Thread nD τ).loc main_arg0) : S50000x128.Idx → EReal) (ix2 R a) := by
  obtain ⟨e0, e1, -⟩ := grid_facts t
  refine (?_ : _ = V m c main_arg0 (ix2 R a)).trans (congrFun (V_main_arg0 m c) _)
  show V m c main_arg0 (((cfg0.win 0).blk t).view.emb (ix2 p a)) = V m c main_arg0 (ix2 R a)
  congr 1
  funext ax; apply Fin.ext
  match ax with
  | ⟨0, _⟩ => show win0_0.index t (0 : Fin 2) * 5000 + 1 * p.val = R.val; omega
  | ⟨1, _⟩ => show win0_0.index t (1 : Fin 2) * 128 + 1 * a.val = a.val; omega

/-- Row p of the neighbour sums' block at point t: what arrives at node R = 5000·t + p. -/
theorem sums_blk (t : Fin cfg0.N) (p : Fin 5000) (a : Fin 128) (R : Fin 50000)
    (hR : R.val = win0_10.index t (0 : Fin 2) * 5000 + p.val) :
    (iblk m c 1 t : S5000x128.Idx → EReal) (ix2 p a)
      = z + rowsInto (by decide : 0 < 50000) (m ((c : Thread nD τ).loc main_arg0) : S50000x128.Idx → EReal)
          (srcIdx (m ((c : Thread nD τ).loc main_arg1))) (dstIdx (m ((c : Thread nD τ).loc main_arg1))) R a := by
  obtain ⟨-, -, e0, e1, -⟩ := grid_facts t
  have hf : (iblk m c 1 t : S5000x128.Idx → EReal)
      = ((cfg0.win 1).blk t).view.read (Elt Ideal) (V m c main_v16 : S50000x128.Idx → EReal) := rfl
  have hemb : (((cfg0.win 1).blk t).view.emb (ix2 p a) : S50000x128.Idx) = ix2 R a := by
    funext ax; apply Fin.ext
    match ax with
    | ⟨0, _⟩ => show win0_1.index t (0 : Fin 2) * 5000 + 1 * p.val = R.val; omega
    | ⟨1, _⟩ => show win0_1.index t (1 : Fin 2) * 128 + 1 * a.val = a.val; omega
  rw [hf, sums_read, hemb]
  exact sums_apply m c R a

/-- Row p of the counts' block at point t: the weight that arrives at node R = 5000·t + p. -/
theorem counts_blk (t : Fin cfg0.N) (p : Fin 5000) (R : Fin 50000)
    (hR : R.val = win0_10.index t (0 : Fin 2) * 5000 + p.val) :
    (iblk m c 2 t : S5000x1.Idx → EReal) (ix2 p (0 : Fin 1))
      = z + weightInto (dstIdx (m ((c : Thread nD τ).loc main_arg1))) (fun _ => one) R := by
  obtain ⟨-, -, -, -, e0, e1, -⟩ := grid_facts t
  have hf : (iblk m c 2 t : S5000x1.Idx → EReal)
      = ((cfg0.win 2).blk t).view.read (Elt Ideal) (V m c main_v17 : S50000x1.Idx → EReal) := rfl
  have hemb : (((cfg0.win 2).blk t).view.emb (ix2 p (0 : Fin 1)) : S50000x1.Idx) = ix2 R (0 : Fin 1) := by
    funext ax; apply Fin.ext
    match ax with
    | ⟨0, _⟩ => show win0_2.index t (0 : Fin 2) * 5000 + 1 * p.val = R.val; omega
    | ⟨1, _⟩ => show win0_2.index t (1 : Fin 2) * 1 + 1 * 0 = 0; omega
  rw [hf, counts_read, hemb]
  exact counts_apply m c R

/-! ## Whole-array blocks: the weights -/

theorem wl_blk (t : Fin cfg0.N) :
    (iblk m c 3 t : S128x256.Idx → EReal) = (m ((c : Thread nD τ).loc main_arg2) : S128x256.Idx → EReal) := by
  obtain ⟨-, -, -, -, -, -, e0, e1, -⟩ := grid_facts t
  funext i
  refine (?_ : _ = V m c main_arg2 i).trans (congrFun (V_main_arg2 m c) _)
  show V m c main_arg2 (((cfg0.win 3).blk t).view.emb i) = V m c main_arg2 i
  congr 1
  funext ax; apply Fin.ext
  match ax with
  | ⟨0, _⟩ => show win0_3.index t (0 : Fin 2) * 128 + 1 * (i 0).val = (i 0).val; omega
  | ⟨1, _⟩ => show win0_3.index t (1 : Fin 2) * 256 + 1 * (i 1).val = (i 1).val; omega

theorem wr_blk (t : Fin cfg0.N) :
    (iblk m c 5 t : S128x256.Idx → EReal) = (m ((c : Thread nD τ).loc main_arg4) : S128x256.Idx → EReal) := by
  obtain ⟨-, -, -, -, -, -, -, -, -, -, e0, e1, -⟩ := grid_facts t
  funext i
  refine (?_ : _ = V m c main_arg4 i).trans (congrFun (V_main_arg4 m c) _)
  show V m c main_arg4 (((cfg0.win 5).blk t).view.emb i) = V m c main_arg4 i
  congr 1
  funext ax; apply Fin.ext
  match ax with
  | ⟨0, _⟩ => show win0_5.index t (0 : Fin 2) * 128 + 1 * (i 0).val = (i 0).val; omega
  | ⟨1, _⟩ => show win0_5.index t (1 : Fin 2) * 256 + 1 * (i 1).val = (i 1).val; omega

theorem w1_blk (t : Fin cfg0.N) :
    (iblk m c 6 t : S256x256.Idx → EReal) = (m ((c : Thread nD τ).loc main_arg5) : S256x256.Idx → EReal) := by
  obtain ⟨-, -, -, -, -, -, -, -, -, -, -, -, e0, e1, -⟩ := grid_facts t
  funext i
  refine (?_ : _ = V m c main_arg5 i).trans (congrFun (V_main_arg5 m c) _)
  show V m c main_arg5 (((cfg0.win 6).blk t).view.emb i) = V m c main_arg5 i
  congr 1
  funext ax; apply Fin.ext
  match ax with
  | ⟨0, _⟩ => show win0_6.index t (0 : Fin 2) * 256 + 1 * (i 0).val = (i 0).val; omega
  | ⟨1, _⟩ => show win0_6.index t (1 : Fin 2) * 256 + 1 * (i 1).val = (i 1).val; omega

theorem w2_blk (t : Fin cfg0.N) :
    (iblk m c 8 t : S256x128.Idx → EReal) = (m ((c : Thread nD τ).loc main_arg7) : S256x128.Idx → EReal) := by
  obtain ⟨-, -, -, -, -, -, -, -, -, -, -, -, -, -, -, -, e0, e1, -⟩ := grid_facts t
  funext i
  refine (?_ : _ = V m c main_arg7 i).trans (congrFun (V_main_arg7 m c) _)
  show V m c main_arg7 (((cfg0.win 8).blk t).view.emb i) = V m c main_arg7 i
  congr 1
  funext ax; apply Fin.ext
  match ax with
  | ⟨0, _⟩ => show win0_8.index t (0 : Fin 2) * 256 + 1 * (i 0).val = (i 0).val; omega
  | ⟨1, _⟩ => show win0_8.index t (1 : Fin 2) * 128 + 1 * (i 1).val = (i 1).val; omega

/-! ## Whole-array blocks: the one-row biases -/

theorem bl_blk (t : Fin cfg0.N) (j : Fin 256) :
    (iblk m c 4 t : S1x256.Idx → EReal) (ix2 (0 : Fin 1) j)
      = (m ((c : Thread nD τ).loc main_arg3) : S256.Idx → EReal) (ix1 j) := by
  obtain ⟨-, -, -, -, -, -, -, -, e0, e1, -⟩ := grid_facts t
  refine (?_ : _ = (V m c main_v18 : S1x256.Idx → EReal) (ix2 (0 : Fin 1) j)).trans ?_
  · show V m c main_v18 (((cfg0.win 4).blk t).view.emb (ix2 (0 : Fin 1) j)) = V m c main_v18 (ix2 (0 : Fin 1) j)
    congr 1
    funext ax; apply Fin.ext
    match ax with
    | ⟨0, _⟩ => show win0_4.index t (0 : Fin 2) * 1 + 1 * 0 = 0; omega
    | ⟨1, _⟩ => show win0_4.index t (1 : Fin 2) * 256 + 1 * j.val = j.val; omega
  · rw [bias0_eq m c, shapeCast_a_1a_apply]

theorem b1_blk (t : Fin cfg0.N) (j : Fin 256) :
    (iblk m c 7 t : S1x256.Idx → EReal) (ix2 (0 : Fin 1) j)
      = (m ((c : Thread nD τ).loc main_arg6) : S256.Idx → EReal) (ix1 j) := by
  obtain ⟨-, -, -, -, -, -, -, -, -, -, -, -, -, -, e0, e1, -⟩ := grid_facts t
  refine (?_ : _ = (V m c main_v19 : S1x256.Idx → EReal) (ix2 (0 : Fin 1) j)).trans ?_
  · show V m c main_v19 (((cfg0.win 7).blk t).view.emb (ix2 (0 : Fin 1) j)) = V m c main_v19 (ix2 (0 : Fin 1) j)
    congr 1
    funext ax; apply Fin.ext
    match ax with
    | ⟨0, _⟩ => show win0_7.index t (0 : Fin 2) * 1 + 1 * 0 = 0; omega
    | ⟨1, _⟩ => show win0_7.index t (1 : Fin 2) * 256 + 1 * j.val = j.val; omega
  · rw [bias1_eq m c, shapeCast_a_1a_apply]

theorem b2_blk (t : Fin cfg0.N) (j : Fin 128) :
    (iblk m c 9 t : S1x128.Idx → EReal) (ix2 (0 : Fin 1) j)
      = (m ((c : Thread nD τ).loc main_arg8) : S128.Idx → EReal) (ix1 j) := by
  obtain ⟨-, -, -, -, -, -, -, -, -, -, -, -, -, -, -, -, -, -, e0, e1, -⟩ := grid_facts t
  refine (?_ : _ = (V m c main_v20 : S1x128.Idx → EReal) (ix2 (0 : Fin 1) j)).trans ?_
  · show V m c main_v20 (((cfg0.win 9).blk t).view.emb (ix2 (0 : Fin 1) j)) = V m c main_v20 (ix2 (0 : Fin 1) j)
    congr 1
    funext ax; apply Fin.ext
    match ax with
    | ⟨0, _⟩ => show win0_9.index t (0 : Fin 2) * 1 + 1 * 0 = 0; omega
    | ⟨1, _⟩ => show win0_9.index t (1 : Fin 2) * 128 + 1 * j.val = j.val; omega
  · rw [bias2_eq m c, shapeCast_a_1a_apply]

end Cert.KernelIdeal.Arrays

end
-- ==== Proof.Spec.lean ====
/-
  The network's output as one function of whole arrays.

  Node r's output row is `nodeOut` of the node's own features, of what arrives at r along the edges in each feature
  column (from the value of the all-zero word), and of the weight 1.0 per edge that arrives at r (again from that
  zero).  The edges enter through two columns of integer words, the sources `sidx` and the destinations `didx`:
  a source is read signed and clamped to a node, a destination is read signed and an edge whose destination is no
  node arrives nowhere.
-/
import proofs.«177334_j34419867910897_2_alg».proof.Proof.LibEdgeSums
import proofs.«177334_j34419867910897_2_alg».proof.Proof.LibSageMlp

noncomputable section

namespace Cert.Spec

open Idealize.ShloMosaic Idealize.ShloMosaic.ValueIdx Cert.Dense Cert.Sage Cert.EdgeSums Cert.SageMlp

/-- The output array [50000, 128] for features `x`, edge columns `sidx` / `didx`, weights and biases. -/
def out (x : (⟨2, ![50000, 128]⟩ : Shape).Idx → EReal) (sidx didx : IVec ⟨2, ![800000, 1]⟩ 32)
    (Wl : (⟨2, ![128, 256]⟩ : Shape).Idx → EReal) (bl : (⟨1, ![256]⟩ : Shape).Idx → EReal)
    (Wr : (⟨2, ![128, 256]⟩ : Shape).Idx → EReal)
    (W1 : (⟨2, ![256, 256]⟩ : Shape).Idx → EReal) (b1 : (⟨1, ![256]⟩ : Shape).Idx → EReal)
    (W2 : (⟨2, ![256, 128]⟩ : Shape).Idx → EReal) (b2 : (⟨1, ![128]⟩ : Shape).Idx → EReal) :
    (⟨2, ![50000, 128]⟩ : Shape).Idx → EReal :=
  fun i => nodeOut (fun a => x (ix2 (i 0) a))
    (fun a => z + rowsInto (by decide : 0 < 50000) x sidx didx (i 0) a)
    (z + weightInto didx (fun _ => one) (i 0))
    Wl Wr (fun j => bl (ix1 j)) W1 (fun k => b1 (ix1 k)) W2 (fun q => b2 (ix1 q)) (i 1)

theorem out_apply (x : (⟨2, ![50000, 128]⟩ : Shape).Idx → EReal) (sidx didx : IVec ⟨2, ![800000, 1]⟩ 32)
    (Wl : (⟨2, ![128, 256]⟩ : Shape).Idx → EReal) (bl : (⟨1, ![256]⟩ : Shape).Idx → EReal)
    (Wr : (⟨2, ![128, 256]⟩ : Shape).Idx → EReal)
    (W1 : (⟨2, ![256, 256]⟩ : Shape).Idx → EReal) (b1 : (⟨1, ![256]⟩ : Shape).Idx → EReal)
    (W2 : (⟨2, ![256, 128]⟩ : Shape).Idx → EReal) (b2 : (⟨1, ![128]⟩ : Shape).Idx → EReal)
    (r : Fin 50000) (c : Fin 128) :
    out x sidx didx Wl bl Wr W1 b1 W2 b2 (ix2 r c)
      = nodeOut (fun a => x (ix2 r a)) (fun a => z + rowsInto (by decide : 0 < 50000) x sidx didx r a)
          (z + weightInto didx (fun _ => one) r) Wl Wr (fun j => bl (ix1 j)) W1 (fun k => b1 (ix1 k)) W2
          (fun q => b2 (ix1 q)) c := rfl

end Cert.Spec

end
-- ==== Proof.KernelValue.lean ====
/-
  The fused kernel's result array.

  At grid point t the body loads the three row-wise blocks and the seven weight and bias arrays, and stores one
  [5000, 128] block: at (p, q) it is `nodeOut` of row p of the blocks, that is of node 5000·t + p of the arrays.
  The ten blocks tile the [50000, 128] result, so after the run the result array is the network's output as one
  function of the argument arrays (`Spec.out`).
-/
import proofs.«177334_j34419867910897_2_alg».proof.Proof.KernelReads
import proofs.«177334_j34419867910897_2_alg».proof.Proof.Spec

noncomputable section

open scoped BigOperators

namespace Cert.KernelIdeal.Bridge

open Cert.KernelIdeal Cert.KernelIdeal.Gen Cert.KernelIdeal.Value Cert.KernelIdeal.Arrays Idealize.ShloMosaic
  Idealize.ShloMosaic.TcCoe Idealize.SL.Sem Idealize.ShloMosaic.ValueIdx Cert.RowOps Cert.SageMlp
open Idealize.ShloMosaic.Pipeline (Dat)

theorem plain1 : IsPlain dot_S5000x128_S128x256_S5000x256_1_0_0_1_n_n := ⟨rfl, rfl, rfl, rfl, rfl, rfl⟩
theorem plain2 : IsPlain dot_S5000x256_S256x256_S5000x256_1_0_0_1_n_n := ⟨rfl, rfl, rfl, rfl, rfl, rfl⟩
theorem plain3 : IsPlain dot_S5000x256_S256x128_S5000x128_1_0_0_1_n_n := ⟨rfl, rfl, rfl, rfl, rfl, rfl⟩

/-- `nodeOut` of equal data is equal. -/
theorem nodeOut_congr {K H H' N : Nat} {xr xr' sr sr' : Fin K → EReal} {n n' : EReal}
    {Wl Wl' Wr Wr' : (⟨2, ![K, H]⟩ : Shape).Idx → EReal} {bl bl' : Fin H → EReal}
    {W1 W1' : (⟨2, ![H, H']⟩ : Shape).Idx → EReal} {b1 b1' : Fin H' → EReal}
    {W2 W2' : (⟨2, ![H', N]⟩ : Shape).Idx → EReal} {b2 b2' : Fin N → EReal} (c : Fin N)
    (h1 : xr = xr') (h2 : sr = sr') (h3 : n = n') (h4 : Wl = Wl') (h5 : Wr = Wr') (h6 : bl = bl') (h7 : W1 = W1')
    (h8 : b1 = b1') (h9 : W2 = W2') (h10 : b2 = b2') :
    nodeOut xr sr n Wl Wr bl W1 b1 W2 b2 c = nodeOut xr' sr' n' Wl' Wr' bl' W1' b1' W2' b2' c := by
  subst h1 h2 h3 h4 h5 h6 h7 h8 h9 h10; rfl

/-- The stored block at (p, q) over arbitrary loaded blocks: `nodeOut` of row p. -/
theorem pay_apply (x0 x1 : Vec Ideal S5000x128 .f32) (x2 : Vec Ideal S5000x1 .f32) (x3 : Vec Ideal S128x256 .f32)
    (x4 : Vec Ideal S1x256 .f32) (x5 : Vec Ideal S128x256 .f32) (x6 : Vec Ideal S256x256 .f32)
    (x7 : Vec Ideal S1x256 .f32) (x8 : Vec Ideal S256x128 .f32) (x9 : Vec Ideal S1x128 .f32)
    (p : Fin 5000) (q : Fin 128) :
    k0_pay1 (k0_pay2 x0 x1 x2 x3 x5 x4 x6 x7 x8) (k0_pay3 x9) (ix2 p q)
      = nodeOut (fun a => x0 (ix2 p a)) (fun a => x1 (ix2 p a)) (x2 (ix2 p (0 : Fin 1))) x3 x5
          (fun j => x4 (ix2 (0 : Fin 1) j)) x6 (fun k => x7 (ix2 (0 : Fin 1) k)) x8 (fun n => x9 (ix2 (0 : Fin 1) n)) q :=
  blockNet_apply plain1 plain2 plain3 x0 x1 x2 x3 x5 x4 x6 x7 x8 x9
    shapeCasts_S5000x128_S5000x128 shapeCasts_S5000x1_S5000x1 broadcasts_S5000x1_S5000x128
    shapeCasts_S1x256_S1x256 broadcasts_S1x256_S5000x256 shapeCasts_S1x256_S1x256 broadcasts_S1x256_S5000x256
    shapeCasts_S1x128_S1x128 broadcasts_S1x128_S5000x128 p q

variable (m : (ℓ : Loc nD τ sig) → Buf (Elt Ideal) ℓ) (ρ : Dev nD → PrngReg)

/-- The result array: the network's output of the argument arrays, the edge list read as its two index columns. -/
def result (c : Dev nD) : S50000x128.Idx → EReal :=
  Cert.Spec.out (m ((c : Thread nD τ).loc main_arg0)) (srcIdx (m ((c : Thread nD τ).loc main_arg1)))
    (dstIdx (m ((c : Thread nD τ).loc main_arg1))) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

theorem hz : (![0, 0] : Fin 2 → Nat) = fun _ => 0 := funext fun a => by fin_cases a <;> rfl

/-- What point t stores at (p, q) is the result at the array index under it, (5000·t + p, q). -/
theorem written_apply (c : Dev nD) (t : Fin cfg0.N) (p : Fin 5000) (q : Fin 128) :
    k0_pay1 (k0_pay2 (iblk m c 0 t) (iblk m c 1 t) (iblk m c 2 t) (iblk m c 3 t) (iblk m c 5 t) (iblk m c 4 t)
        (iblk m c 6 t) (iblk m c 7 t) (iblk m c 8 t)) (k0_pay3 (iblk m c 9 t)) (ix2 p q)
      = result m c (((cfg0.win 10).blk t).view.emb (ix2 p q)) := by
  obtain ⟨-, -, -, -, -, -, -, -, -, -, -, -, -, -, -, -, -, -, -, -, e0, e1, ht⟩ := grid_facts t
  obtain ⟨R, hR⟩ : ∃ R : Fin 50000, R.val = win0_10.index t (0 : Fin 2) * 5000 + p.val :=
    ⟨⟨win0_10.index t (0 : Fin 2) * 5000 + p.val, by have := p.isLt; omega⟩, rfl⟩
  have hemb : ((cfg0.win 10).blk t).view.emb (ix2 p q) = ix2 R q := by
    funext ax; apply Fin.ext
    match ax with
    | ⟨0, _⟩ => show win0_10.index t (0 : Fin 2) * 5000 + 1 * p.val = R.val; omega
    | ⟨1, _⟩ => show win0_10.index t (1 : Fin 2) * 128 + 1 * q.val = q.val; omega
  rw [hemb]
  refine (pay_apply _ _ _ _ _ _ _ _ _ _ p q).trans ?_
  unfold result
  rw [Cert.Spec.out_apply]
  exact nodeOut_congr q (funext fun a => features_blk m c t p a R hR) (funext fun a => sums_blk m c t p a R hR)
    (counts_blk m c t p R hR) (wl_blk m c t) (wr_blk m c t) (funext fun j => bl_blk m c t j) (w1_blk m c t)
    (funext fun k => b1_blk m c t k) (w2_blk m c t) (funext fun j => b2_blk m c t j)

/-- The same at any index of the block. -/
theorem written_at (c : Dev nD) (t : Fin cfg0.N) (y : S5000x128.Idx) :
    k0_pay1 (k0_pay2 (iblk m c 0 t) (iblk m c 1 t) (iblk m c 2 t) (iblk m c 3 t) (iblk m c 5 t) (iblk m c 4 t)
        (iblk m c 6 t) (iblk m c 7 t) (iblk m c 8 t)) (k0_pay3 (iblk m c 9 t)) y
      = result m c (((cfg0.win 10).blk t).view.emb y) := by
  obtain ⟨p, q, rfl⟩ : ∃ (p : Fin 5000) (q : Fin 128), y = ix2 p q := ⟨y 0, y 1, eq_ix2 y⟩
  exact written_apply m c t p q

/-- The output window's blocks lie inside the array, so what is written back of ANY staged block is the block. -/
theorem out_cut (W : S5000x128.Idx → EReal) (t : Fin cfg0.N) (y : S5000x128.Idx) :
    ((cfg0.win 10).cut (grid0.coords t) W : S5000x128.Idx → EReal) y = W y := rfl

/-- A block of the output window reads ANY array under it where the block's index sits. -/
theorem out_read (X : S50000x128.Idx → EReal) (t : Fin cfg0.N) (y : S5000x128.Idx) :
    (((cfg0.win 10).blk t).view.read (Elt Ideal) X : S5000x128.Idx → EReal) y
      = X (((cfg0.win 10).blk t).view.emb y) := rfl

/-- WHAT POINT t WRITES BACK is block t of the result. -/
theorem flushed_eq (c : Dev nD) (t : Fin cfg0.N) :
    (dats m 0 c).flushed 10 t = ((cfg0.win 10).blk t).view.read (Elt Ideal) (result m c) := by
  show (cfg0.win 10).cut (grid0.coords t) ((dats m 0 c).after 10 t) = _
  rw [after0_10]
  unfold out0_10
  rw [View.canon_unit_zero hz]
  simp only [View.ld_unit_zero (S := S5000x128) hz, View.ld_unit_zero (S := S5000x1) hz,
    View.ld_unit_zero (S := S128x256) hz, View.ld_unit_zero (S := S1x256) hz, View.ld_unit_zero (S := S256x256) hz,
    View.ld_unit_zero (S := S256x128) hz, View.ld_unit_zero (S := S1x128) hz]
  funext y
  exact (out_cut _ t y).trans ((written_at m c t y).trans (out_read (result m c) t y).symm)

/-- An index of the result array is in point t's block iff its row is among the block's 5000 rows. -/
theorem mem_blk (t : Fin cfg0.N) (i : S50000x128.Idx) :
    i ∈ ((cfg0.win 10).blk t).view.set ↔ ∀ a : Fin 2, win0_10.index t a * S5000x128.size a ≤ (i a).val
      ∧ (i a).val < win0_10.index t a * S5000x128.size a + S5000x128.size a := by
  show i ∈ ((View.whole main_v21).slice (win0_10.rect t)).set ↔ _
  rw [View.set_slice_whole, Rect.mem_set_unit]
  exact Iff.rfl

/-- Every index of the result array is in the block of the point its row falls in. -/
theorem cover (i : S50000x128.Idx) :
    ∃ t : Fin cfg0.N, (cfg0.win 10).flush t = true ∧ i ∈ ((cfg0.win 10).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨-, -, -, -, -, -, -, -, -, -, -, -, -, -, -, -, -, -, -, -, e0, e1, -⟩ := grid_facts t
  have ht : t.val = (i 0).val / 5000 := rfl
  refine ⟨t, flush0_10 t, ?_⟩
  rw [mem_blk]
  intro a
  match a with
  | ⟨0, _⟩ =>
    show win0_10.index t (0 : Fin 2) * 5000 ≤ (i 0).val ∧ (i 0).val < win0_10.index t (0 : Fin 2) * 5000 + 5000
    omega
  | ⟨1, _⟩ =>
    show win0_10.index t (1 : Fin 2) * 128 ≤ (i 1).val ∧ (i 1).val < win0_10.index t (1 : Fin 2) * 128 + 128
    omega

/-- THE RESULT ARRAY after the run. -/
theorem final (c : Dev nD) : (dats m 0 c).arrAt 10 cfg0.N = result m c :=
  (dats m 0 c).arrAt_eq_of_cover 10 (result m c) (fun t _ => flushed_eq m c t) cover

/-- The run, read: the result array at the network's output, the arguments unchanged. -/
theorem run : θ_run defs (onTc (τ := τ) (main (F := Ideal))) ⟨m, fun _ => 0, ρ⟩ fun r => ∀ c : Dev nD,
      r.2.mem ((c : Thread nD τ).loc main_v21) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (run_blocks m ρ)

end Cert.KernelIdeal.Bridge

end
-- ==== Proof.ReferenceSide.lean ====
/-
  The reference's result read at one index.

  The reference adds up, for every node, the feature rows of the sources of the edges that arrive at it and, in a
  second pass, a 1.0 per arriving edge; it divides the sums by max(count, 1) and runs the layer and the perceptron
  over whole arrays.  Its result at (r, c) is therefore `nodeOut` of node r's own features, of what arrives at r in
  each column from zero, and of the weight one per edge that arrives at r from zero.
-/
import proofs.«177334_j34419867910897_2_alg».proof.Proof.Gen.ReferenceIdeal.Read
import Idealize.ShloMosaic.Lib.IdealHost
import proofs.«177334_j34419867910897_2_alg».proof.Proof.LibEdgeSums
import proofs.«177334_j34419867910897_2_alg».proof.Proof.LibSageMlp
import proofs.«177334_j34419867910897_2_alg».proof.Proof.Spec

noncomputable section

open scoped BigOperators

namespace Cert.ReferenceIdeal.Bridge

open Cert.ReferenceIdeal Cert.ReferenceIdeal.Gen Cert.ReferenceIdeal.Read Idealize.ShloMosaic
  Idealize.ShloMosaic.ValueIdx Cert.RowOps Cert.Dense Cert.Sage Cert.EdgeSums Cert.SageMlp

theorem plain1 : IsPlain dot_S50000x128_S128x256_S50000x256_1_0_0_1_n_n := ⟨rfl, rfl, rfl, rfl, rfl, rfl⟩
theorem plain2 : IsPlain dot_S50000x256_S256x256_S50000x256_1_0_0_1_n_n := ⟨rfl, rfl, rfl, rfl, rfl, rfl⟩
theorem plain3 : IsPlain dot_S50000x256_S256x128_S50000x128_1_0_0_1_n_n := ⟨rfl, rfl, rfl, rfl, rfl, rfl⟩

/-- The result at (r, c): `nodeOut` of row r of the features, of the neighbour sums and of the count. -/
theorem result_apply (x0 : S50000x128.Idx → EReal) (x1 : S2x800000.Idx → BitVec 32) (x2 : S128x256.Idx → EReal)
    (x3 : S256.Idx → EReal) (x4 : S128x256.Idx → EReal) (x5 : S256x256.Idx → EReal) (x6 : S256.Idx → EReal)
    (x7 : S256x128.Idx → EReal) (x8 : S128.Idx → EReal) (r : Fin 50000) (c : Fin 128) :
    val_main_v38 (F := Ideal) x0 x1 x2 x3 x4 x5 x6 x7 x8 (ix2 r c)
      = nodeOut (fun a => x0 (ix2 r a)) (fun a => val_main_v13 (F := Ideal) x0 x1 (ix2 r a))
          (val_main_v17 (F := Ideal) x1 (ix1 r)) x2 x4 (fun j => x3 (ix1 j)) x5 (fun k => x6 (ix1 k)) x7
          (fun q => x8 (ix1 q)) c :=
  hostNet_apply plain1 plain2 plain3 x0 (val_main_v13 (F := Ideal) x0 x1) (val_main_v17 (F := Ideal) x1) x2 x4 x3 x5 x6 x7 x8
    bcast_S_S50000 bcast_S50000_S50000x1_0 bcast_S50000x1_S50000x128_0_1
    bcast_S256_S1x256_1 bcast_S1x256_S50000x256_0_1 bcast_S_S50000x256
    bcast_S256_S1x256_1 bcast_S1x256_S50000x256_0_1 bcast_S_S50000x256
    bcast_S128_S1x128_1 bcast_S1x128_S50000x128_0_1 r c

/-- The neighbour sums as a whole array: the exact scatter, from zero, of the rows gathered at the sources. -/
theorem sums_fun (x0 : S50000x128.Idx → EReal) (x1 : S2x800000.Idx → BitVec 32) :
    val_main_v13 (F := Ideal) x0 x1
      = Ideal.hostScatterAdd (rowScatterDims 50000 128 800000 scatter_S50000x128_S800000x1_S800000x128_1_0_0_1_wf)
          (val_main_v11 (F := Ideal)) (val_main_v12 (F := Ideal) x1)
          (Host.gather (rowGatherDims 50000 128 800000 gather_S50000x128_S800000x1_S800000x128_1_0_n_n_0_1_1128_wf) x0
            (val_main_v9 (F := Ideal) x1)) := rfl

/-- The counts as a whole array: the exact scatter, from zero, of a 1.0 per edge. -/
theorem counts_fun (x1 : S2x800000.Idx → BitVec 32) :
    val_main_v17 (F := Ideal) x1
      = Ideal.hostScatterAdd (pointScatterDims 50000 800000 scatter_S50000_S800000x1_S800000_n_0_0_1_wf)
          (val_main_v15 (F := Ideal)) (val_main_v12 (F := Ideal) x1) (val_main_v14 (F := Ideal)) := rfl

/-- The neighbour sums at (n, j): from zero, what arrives at n in column j. -/
theorem sums_apply (x0 : S50000x128.Idx → EReal) (x1 : S2x800000.Idx → BitVec 32) (n : Fin 50000) (j : Fin 128) :
    val_main_v13 (F := Ideal) x0 x1 (ix2 n j)
      = z + rowsInto (by decide : 0 < 50000) x0 (val_main_v9 (F := Ideal) x1) (val_main_v12 (F := Ideal) x1) n j := by
  rw [sums_fun, gatherScatter_apply (by decide : 0 < 50000), val_main_v11_apply, val_main_cst_apply]
  exact congrArg (· + rowsInto _ x0 _ _ n j) (rfl : FloatOps.ofBits (F := Ideal) .f32 0x00000000#32 = z)

/-- The counts at n: from zero, the weight 1.0 per edge that arrives at n. -/
theorem counts_apply (x1 : S2x800000.Idx → BitVec 32) (n : Fin 50000) :
    val_main_v17 (F := Ideal) x1 (ix1 n) = z + weightInto (val_main_v12 (F := Ideal) x1) (fun _ => one) n := by
  rw [counts_fun, pointScatterAdd_weight, val_main_v15_apply, val_main_cst_2_apply]
  have hu : (fun e : Fin 800000 => val_main_v14 (F := Ideal) (ix1 e)) = fun _ => one := by
    funext e
    rw [val_main_v14_apply, val_main_cst_1_apply]
    rfl
  rw [hu]
  exact congrArg (· + weightInto _ (fun _ => one) n) (rfl : FloatOps.ofBits (F := Ideal) .f32 0x00000000#32 = z)

/-- THE REFERENCE'S RESULT is the network's output of its arguments, the edge list read as its two index columns. -/
theorem result_eq (x0 : S50000x128.Idx → EReal) (x1 : S2x800000.Idx → BitVec 32) (x2 : S128x256.Idx → EReal)
    (x3 : S256.Idx → EReal) (x4 : S128x256.Idx → EReal) (x5 : S256x256.Idx → EReal) (x6 : S256.Idx → EReal)
    (x7 : S256x128.Idx → EReal) (x8 : S128.Idx → EReal) :
    val_main_v38 (F := Ideal) x0 x1 x2 x3 x4 x5 x6 x7 x8
      = Cert.Spec.out x0 (val_main_v9 (F := Ideal) x1) (val_main_v12 (F := Ideal) x1) x2 x3 x4 x5 x6 x7 x8 := by
  funext i
  obtain ⟨r, c, rfl⟩ : ∃ (r : Fin 50000) (c : Fin 128), i = ix2 r c := ⟨i 0, i 1, eq_ix2 i⟩
  rw [result_apply, Cert.Spec.out_apply]
  simp only [sums_apply, counts_apply]

end Cert.ReferenceIdeal.Bridge

end
-- ==== Proof.lean ====
/-
  A mean-aggregating graph layer and a two-layer perceptron, fused in one kernel, against the whole-array reference,
  on the extended reals.

  For a graph of 50000 nodes and 800000 edges both programs compute, for every node r,
      h  = relu((s_r / max(n_r, 1)) · Wl + x_r · Wr + bl),   h' = relu(h · W1 + b1),   out_r = h' · W2 + b2,
  where s_r is the sum of the feature rows of the sources of the edges arriving at r and n_r the number of those
  edges.  The reference makes s and n by two scatters with an `add` body (rows of features; a 1.0 per edge) and
  runs the rest over whole arrays.  The kernel's host part appends a column of ones to the features, gathers and
  scatters the extended rows once, and cuts the result into s (the first 128 columns) and n (the last column, a sum
  of ones); the kernel proper then runs the layer and the perceptron over ten blocks of 5000 rows.

  The two agree term by term.  A source index is read signed and clamped to a node by both gathers alike, so the
  ones column always contributes a 1; a destination is read signed and unclamped by all three scatters alike, so an
  edge is dropped by one exactly when it is dropped by the others; at the ideal instance a scatter-add is the exact
  sum over the arriving edges, and addition of extended reals is commutative and associative, so nothing depends on
  the order of the edges or on any entry being finite.  After that both sides are the same expression of node r's
  own data (`SageMlp.nodeOut`), the same literal words for 0.0 and 1.0 on both sides.  The precondition is not used
  by the value claim.  The frames of the two kernel programs and the kernel's blockwise value leg, the reference's
  run and its operation-by-operation reading are the generated modules; the ideal pass rewrote nothing, so the
  idealization claim is trivial.
-/
import proofs.«177334_j34419867910897_2_alg».proof.Defs
import proofs.«177334_j34419867910897_2_alg».proof.Proof.Gen.Kernel
import proofs.«177334_j34419867910897_2_alg».proof.Proof.Gen.Kernel.Skeleton
import proofs.«177334_j34419867910897_2_alg».proof.Proof.Gen.Kernel.Launch
import proofs.«177334_j34419867910897_2_alg».proof.Proof.Gen.Kernel.Points
import proofs.«177334_j34419867910897_2_alg».proof.Proof.Gen.Kernel.Frame
import proofs.«177334_j34419867910897_2_alg».proof.Proof.Gen.KernelIdeal
import proofs.«177334_j34419867910897_2_alg».proof.Proof.Gen.KernelIdeal.Skeleton
import proofs.«177334_j34419867910897_2_alg».proof.Proof.Gen.KernelIdeal.Launch
import proofs.«177334_j34419867910897_2_alg».proof.Proof.Gen.KernelIdeal.Points
import proofs.«177334_j34419867910897_2_alg».proof.Proof.Gen.KernelIdeal.Frame
import proofs.«177334_j34419867910897_2_alg».proof.Proof.Gen.ReferenceIdeal
import proofs.«177334_j34419867910897_2_alg».proof.Proof.Gen.Pre_finite_inputs
import proofs.«177334_j34419867910897_2_alg».proof.Proof.Gen.KernelIdeal.Value
import proofs.«177334_j34419867910897_2_alg».proof.Proof.Gen.ReferenceIdeal.Run
import proofs.«177334_j34419867910897_2_alg».proof.Proof.Gen.ReferenceIdeal.Read
import proofs.«177334_j34419867910897_2_alg».proof.Proof.KernelValue
import proofs.«177334_j34419867910897_2_alg».proof.Proof.ReferenceSide
import Idealize.ShloMosaic.Adequacy
import Idealize.ShloMosaic.Init

noncomputable section

namespace Cert.Proof

open Idealize.ShloMosaic Idealize.SL.Sem

/-- Both programs read the sources off the edge list by the same operations: row 0, a negative entry moved up by the
    number of nodes, as a column. -/
theorem srcIdx_eq (ei : Cert.KernelIdeal.S2x800000.Idx → BitVec 32) :
    Cert.KernelIdeal.Arrays.srcIdx ei = Cert.ReferenceIdeal.Read.val_main_v9 (F := Ideal) ei := rfl

/-- Both programs read the destinations off the edge list by the same operations: row 1 as a column. -/
theorem dstIdx_eq (ei : Cert.KernelIdeal.S2x800000.Idx → BitVec 32) :
    Cert.KernelIdeal.Arrays.dstIdx ei = Cert.ReferenceIdeal.Read.val_main_v12 (F := Ideal) ei := rfl

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the ideal reading. -/
theorem preserves : Cert.preserves_Kernel_KernelIdeal := trivial

/-- From memories that agree on the arguments, the kernel's result array and the reference's are the same function
    of the arguments: the network's output, node by node. -/
theorem algebraic : Cert.algebraic_KernelIdeal_ReferenceIdeal := by
  intro m ρ m' ρ' _ hagree
  refine ⟨fun c => Cert.KernelIdeal.Bridge.result m c, Cert.KernelIdeal.Bridge.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v38_eq, Cert.ReferenceIdeal.Bridge.result_eq, h0, h1, h2, h3, h4, h5, h6, h7, h8,
    ← srcIdx_eq, ← dstIdx_eq]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
